-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v182) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S4x64 .f32) (main_arg6 : FVec F S64x64 .f32) (main_arg7 : FVec F S64 .f32) (main_arg8 : FVec F S64x64 .f32) (main_arg9 : FVec F S64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S4x64x64 .f32) (main_arg3 : FVec F S4x64 .f32) (main_arg4 : FVec F S4x64x64 .f32) (main_arg5 : FVec F S4x64 .f32) (main_arg6 : FVec F S64x64 .f32) (main_arg7 : FVec F S64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x100000x64 : Shape := ⟨3, ![1, 100000, 64]⟩
abbrev S4x100000x64 : Shape := ⟨3, ![4, 100000, 64]⟩
abbrev S2000x64 : Shape := ⟨2, ![2000, 64]⟩
abbrev S4x2000x64 : Shape := ⟨3, ![4, 2000, 64]⟩
abbrev S1x2000x64 : Shape := ⟨3, ![1, 2000, 64]⟩
abbrev S1x64x64 : Shape := ⟨3, ![1, 64, 64]⟩
abbrev S1x64 : Shape := ⟨2, ![1, 64]⟩

abbrev nBuf : Space → Nat
  | .hbm => 251
  | .vmem => 16
  | .smem => 0
  | _ => 0

abbrev hbmTy0_0 (i : Nat) : BufTy := match i % 128 with
  | 0 => ⟨S100000x64, .f32⟩
  | 1 => ⟨S2x1600000, .i32⟩
  | 2 => ⟨S4x64x64, .f32⟩
  | 3 => ⟨S4x64, .f32⟩
  | 4 => ⟨S4x64x64, .f32⟩
  | 5 => ⟨S4x64, .f32⟩
  | 6 => ⟨S64x64, .f32⟩
  | 7 => ⟨S64, .f32⟩
  | 8 => ⟨S64x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S_, .f32⟩
  | 64 => ⟨S1600000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .i1⟩
  | 76 => ⟨S_, .f32⟩
  | 77 => ⟨S100000, .f32⟩
  | 78 => ⟨S100000, .f32⟩
  | 79 => ⟨S_, .f32⟩
  | 80 => ⟨S_, .f32⟩
  | 81 => ⟨S100000, .f32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x64, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S1600000x1, .f32⟩
  | 10 => ⟨S1600000x64, .f32⟩
  | 11 => ⟨S1600000x64, .f32⟩
  | 12 => ⟨S_, .f32⟩
  | 13 => ⟨S100000x64, .f32⟩
  | 14 => ⟨S1600000x1, .i32⟩
  | 15 => ⟨S100000x64, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S1600000x1, .f32⟩
  | 26 => ⟨S1600000x64, .f32⟩
  | 27 => ⟨S1600000x64, .f32⟩
  | 28 => ⟨S_, .f32⟩
  | 29 => ⟨S100000x64, .f32⟩
  | 30 => ⟨S1600000x1, .i32⟩
  | 31 => ⟨S100000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1600000x1, .f32⟩
  | 42 => ⟨S1600000x64, .f32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S1600000x1, .f32⟩
  | 58 => ⟨S1600000x64, .f32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .f32⟩
  | 73 => ⟨S1600000x1, .f32⟩
  | 74 => ⟨S1600000x64, .f32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x1, .f32⟩
  | 90 => ⟨S1600000x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S1600000x1, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S1x100000x64, .f32⟩
  | 113 => ⟨S1x100000x64, .f32⟩
  | 114 => ⟨S1x100000x64, .f32⟩
  | 115 => ⟨S1x100000x64, .f32⟩
  | 116 => ⟨S4x100000x64, .f32⟩
  | 117 => ⟨S1x100000x64, .f32⟩
  | 118 => ⟨S1x100000x64, .f32⟩
  | 119 => ⟨S1x100000x64, .f32⟩
  | 120 => ⟨S1x100000x64, .f32⟩
  | 121 => ⟨S4x100000x64, .f32⟩
  | 122 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S4x2000x64, .f32⟩
  | .local _ .vmem, ⟨3, _⟩ => ⟨S4x2000x64, .f32⟩
  | .local _ .vmem, ⟨4, _⟩ => ⟨S4x2000x64, .f32⟩
  | .local _ .vmem, ⟨5, _⟩ => ⟨S4x2000x64, .f32⟩
  | .local _ .vmem, ⟨6, _⟩ => ⟨S4x64x64, .f32⟩
  | .local _ .vmem, ⟨7, _⟩ => ⟨S4x64, .f32⟩
  | .local _ .vmem, ⟨8, _⟩ => ⟨S4x64x64, .f32⟩
  | .local _ .vmem, ⟨9, _⟩ => ⟨S4x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S2000x64, .f32⟩
  | .local _ .vmem, ⟨15, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_9 : Ref sig .tc := ⟨.hbm, 53, rfl⟩
abbrev main_v28 : Ref sig .tc := ⟨.hbm, 54, rfl⟩
abbrev main_v29 : Ref sig .tc := ⟨.hbm, 55, rfl⟩
abbrev main_c_10 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_11 : Ref sig .tc := ⟨.hbm, 63, rfl⟩
abbrev main_v36 : Ref sig .tc := ⟨.hbm, 64, rfl⟩
abbrev main_cst_12 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_13 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_14 : Ref sig .tc := ⟨.hbm, 73, rfl⟩
abbrev main_v43 : Ref sig .tc := ⟨.hbm, 74, rfl⟩
abbrev main_v44 : Ref sig .tc := ⟨.hbm, 75, rfl⟩
abbrev main_cst_15 : Ref sig .tc := ⟨.hbm, 76, rfl⟩
abbrev main_v45 : Ref sig .tc := ⟨.hbm, 77, rfl⟩
abbrev main_v46 : Ref sig .tc := ⟨.hbm, 78, rfl⟩
abbrev main_cst_16 : Ref sig .tc := ⟨.hbm, 79, rfl⟩
abbrev main_call2_v0 : Ref sig .tc := ⟨.hbm, 80, rfl⟩
abbrev main_call2_v1 : Ref sig .tc := ⟨.hbm, 81, rfl⟩
abbrev main_v47 : Ref sig .tc := ⟨.hbm, 82, rfl⟩
abbrev main_cst_17 : Ref sig .tc := ⟨.hbm, 83, rfl⟩
abbrev main_v48 : Ref sig .tc := ⟨.hbm, 84, rfl⟩
abbrev main_v49 : Ref sig .tc := ⟨.hbm, 85, rfl⟩
abbrev main_cst_18 : Ref sig .tc := ⟨.hbm, 86, rfl⟩
abbrev main_v50 : Ref sig .tc := ⟨.hbm, 87, rfl⟩
abbrev main_v51 : Ref sig .tc := ⟨.hbm, 88, rfl⟩
abbrev main_cst_19 : Ref sig .tc := ⟨.hbm, 89, rfl⟩
abbrev main_call3_v0 : Ref sig .tc := ⟨.hbm, 90, rfl⟩
abbrev main_call3_v1 : Ref sig .tc := ⟨.hbm, 91, rfl⟩
abbrev main_v52 : Ref sig .tc := ⟨.hbm, 92, rfl⟩
abbrev main_c_20 : Ref sig .tc := ⟨.hbm, 93, rfl⟩
abbrev main_v53 : Ref sig .tc := ⟨.hbm, 94, rfl⟩
abbrev main_v54 : Ref sig .tc := ⟨.hbm, 95, rfl⟩
abbrev main_c_21 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_22 : Ref sig .tc := ⟨.hbm, 102, rfl⟩
abbrev main_v60 : Ref sig .tc := ⟨.hbm, 103, rfl⟩
abbrev main_v61 : Ref sig .tc := ⟨.hbm, 104, rfl⟩
abbrev main_c_23 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_24 : Ref sig .tc := ⟨.hbm, 112, rfl⟩
abbrev main_v68 : Ref sig .tc := ⟨.hbm, 113, rfl⟩
abbrev main_v69 : Ref sig .tc := ⟨.hbm, 114, rfl⟩
abbrev main_c_25 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_26 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_27 : Ref sig .tc := ⟨.hbm, 128, rfl⟩
abbrev main_v81 : Ref sig .tc := ⟨.hbm, 129, rfl⟩
abbrev main_v82 : Ref sig .tc := ⟨.hbm, 130, rfl⟩
abbrev main_c_28 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_29 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_30 : Ref sig .tc := ⟨.hbm, 144, rfl⟩
abbrev main_v94 : Ref sig .tc := ⟨.hbm, 145, rfl⟩
abbrev main_v95 : Ref sig .tc := ⟨.hbm, 146, rfl⟩
abbrev main_c_31 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_32 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_c_33 : Ref sig .tc := ⟨.hbm, 160, rfl⟩
abbrev main_v107 : Ref sig .tc := ⟨.hbm, 161, rfl⟩
abbrev main_v108 : Ref sig .tc := ⟨.hbm, 162, rfl⟩
abbrev main_c_34 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_35 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_c_36 : Ref sig .tc := ⟨.hbm, 176, rfl⟩
abbrev main_v120 : Ref sig .tc := ⟨.hbm, 177, rfl⟩
abbrev main_v121 : Ref sig .tc := ⟨.hbm, 178, rfl⟩
abbrev main_c_37 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_38 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_c_39 : Ref sig .tc := ⟨.hbm, 192, rfl⟩
abbrev main_v133 : Ref sig .tc := ⟨.hbm, 193, rfl⟩
abbrev main_v134 : Ref sig .tc := ⟨.hbm, 194, rfl⟩
abbrev main_c_40 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_41 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_c_42 : Ref sig .tc := ⟨.hbm, 208, rfl⟩
abbrev main_v146 : Ref sig .tc := ⟨.hbm, 209, rfl⟩
abbrev main_v147 : Ref sig .tc := ⟨.hbm, 210, rfl⟩
abbrev main_c_43 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_44 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_c_45 : Ref sig .tc := ⟨.hbm, 224, rfl⟩
abbrev main_v159 : Ref sig .tc := ⟨.hbm, 225, rfl⟩
abbrev main_v160 : Ref sig .tc := ⟨.hbm, 226, rfl⟩
abbrev main_c_46 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_47 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S4x2000x64_S1x2000x64_0_0_0 : ∀ a, (![0, 0, 0] : Fin 3 → Nat) a + S1x2000x64.size a ≤ S4x2000x64.size a
  h_S1x2000x64 : 0 < S1x2000x64.numel
  shapeCasts_S1x2000x64_S2000x64 : S1x2000x64.ShapeCasts S2000x64
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x64_S1x64_0_0 : ∀ a, (![0, 0] : Fin 2 → Nat) a + S1x64.size a ≤ S4x64.size a
  h_S1x64 : 0 < S1x64.numel
  shapeCasts_S1x64_S64 : S1x64.ShapeCasts S64
  transposes_S64x64_p1_0_S64x64 : S64x64.Transposes [1, 0] S64x64
  shapeCasts_S64_S1x64 : S64.ShapeCasts S1x64
  broadcasts_S1x64_S2000x64 : S1x64.Broadcasts S2000x64
  inb_S4x2000x64_S1x2000x64_1_0_0 : ∀ a, (![1, 0, 0] : Fin 3 → Nat) a + S1x2000x64.size a ≤ S4x2000x64.size a
  inb_S4x64x64_S1x64x64_1_0_0 : ∀ a, (![1, 0, 0] : Fin 3 → Nat) a + S1x64x64.size a ≤ S4x64x64.size a
  inb_S4x64_S1x64_1_0 : ∀ a, (![1, 0] : Fin 2 → Nat) a + S1x64.size a ≤ S4x64.size a
  inb_S4x2000x64_S1x2000x64_2_0_0 : ∀ a, (![2, 0, 0] : Fin 3 → Nat) a + S1x2000x64.size a ≤ S4x2000x64.size a
  inb_S4x64x64_S1x64x64_2_0_0 : ∀ a, (![2, 0, 0] : Fin 3 → Nat) a + S1x64x64.size a ≤ S4x64x64.size a
  inb_S4x64_S1x64_2_0 : ∀ a, (![2, 0] : Fin 2 → Nat) a + S1x64.size a ≤ S4x64.size a
  inb_S4x2000x64_S1x2000x64_3_0_0 : ∀ a, (![3, 0, 0] : Fin 3 → Nat) a + S1x2000x64.size a ≤ S4x2000x64.size a
  inb_S4x64x64_S1x64x64_3_0_0 : ∀ a, (![3, 0, 0] : Fin 3 → Nat) a + S1x64x64.size a ≤ S4x64x64.size a
  inb_S4x64_S1x64_3_0 : ∀ a, (![3, 0] : Fin 2 → Nat) a + S1x64.size a ≤ S4x64.size a
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2000x64.size a ≤ S4x100000x64.size a
  hwx0_1 : ∀ i : grid0.Coords, EltTy.bits .f32 = 32 ∨ (Rect.block (s := S4x100000x64) S4x2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2000x64.size a ≤ S4x100000x64.size a
  hwx0_2 : ∀ i : grid0.Coords, EltTy.bits .f32 = 32 ∨ (Rect.block (s := S4x100000x64) S4x2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64x64.size a ≤ S4x64x64.size a
  hwx0_3 : ∀ i : grid0.Coords, EltTy.bits .f32 = 32 ∨ (Rect.block (s := S4x64x64) S4x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x64x64.size a ≤ S4x64x64.size a
  hwx0_5 : ∀ i : grid0.Coords, EltTy.bits .f32 = 32 ∨ (Rect.block (s := S4x64x64) S4x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x64.size a ≤ S4x64.size a
  hwx0_6 : ∀ i : grid0.Coords, EltTy.bits .f32 = 32 ∨ (Rect.block (s := S4x64) S4x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S100000x64.size a
  hwx0_11 : ∀ i : grid0.Coords, EltTy.bits .f32 = 32 ∨ (Rect.block (s := S100000x64) S2000x64.size (cc0_transform_11 i) (hinb0_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v176) S4x2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v181) S4x2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S4x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v182) S2000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x64 : Shape := ⟨3, ![1, 64, 64]⟩
abbrev S1x64 : Shape := ⟨2, ![1, 64]⟩

abbrev nBuf : Space → Nat
  | .hbm => 355
  | .vmem => 0
  | .smem => 0
  | _ => 0

abbrev hbmTy0_0 (i : Nat) : BufTy := match i % 128 with
  | 0 => ⟨S100000x64, .f32⟩
  | 1 => ⟨S2x1600000, .i32⟩
  | 2 => ⟨S4x64x64, .f32⟩
  | 3 => ⟨S4x64, .f32⟩
  | 4 => ⟨S4x64x64, .f32⟩
  | 5 => ⟨S4x64, .f32⟩
  | 6 => ⟨S64x64, .f32⟩
  | 7 => ⟨S64, .f32⟩
  | 8 => ⟨S64x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S_, .f32⟩
  | 64 => ⟨S1600000, .f32⟩
  | 65 => ⟨S_, .f32⟩
  | 66 => ⟨S100000, .f32⟩
  | 67 => ⟨S1600000x1, .i32⟩
  | 68 => ⟨S100000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .i1⟩
  | 76 => ⟨S_, .f32⟩
  | 77 => ⟨S100000, .f32⟩
  | 78 => ⟨S100000, .f32⟩
  | 79 => ⟨S_, .f32⟩
  | 80 => ⟨S_, .f32⟩
  | 81 => ⟨S100000, .f32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x64, .f32⟩
  | 121 => ⟨S1600000x1, .f32⟩
  | 122 => ⟨S1600000x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x64, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S1600000x1, .f32⟩
  | 10 => ⟨S1600000x64, .f32⟩
  | 11 => ⟨S1600000x64, .f32⟩
  | 12 => ⟨S_, .f32⟩
  | 13 => ⟨S100000x64, .f32⟩
  | 14 => ⟨S1600000x1, .i32⟩
  | 15 => ⟨S100000x64, .f32⟩
  | 16 => ⟨S1x64x64, .f32⟩
  | 17 => ⟨S64x64, .f32⟩
  | 18 => ⟨S1x64, .f32⟩
  | 19 => ⟨S64, .f32⟩
  | 20 => ⟨S64x64, .f32⟩
  | 21 => ⟨S100000x64, .f32⟩
  | 22 => ⟨S1x64, .f32⟩
  | 23 => ⟨S100000x64, .f32⟩
  | 24 => ⟨S100000x64, .f32⟩
  | 25 => ⟨S1x64x64, .f32⟩
  | 26 => ⟨S64x64, .f32⟩
  | 27 => ⟨S1x64, .f32⟩
  | 28 => ⟨S64, .f32⟩
  | 29 => ⟨S64x64, .f32⟩
  | 30 => ⟨S100000x64, .f32⟩
  | 31 => ⟨S1x64, .f32⟩
  | 32 => ⟨S100000x64, .f32⟩
  | 33 => ⟨S100000x64, .f32⟩
  | 34 => ⟨S64x64, .f32⟩
  | 35 => ⟨S100000x64, .f32⟩
  | 36 => ⟨S1x64, .f32⟩
  | 37 => ⟨S100000x64, .f32⟩
  | 38 => ⟨S100000x64, .f32⟩
  | 39 => ⟨S100000x64, .f32⟩
  | 40 => ⟨S64x64, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x1, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x1, .f32⟩
  | 72 => ⟨S1600000x64, .f32⟩
  | 73 => ⟨S1600000x64, .f32⟩
  | 74 => ⟨S_, .f32⟩
  | 75 => ⟨S100000x64, .f32⟩
  | 76 => ⟨S1600000x1, .i32⟩
  | 77 => ⟨S100000x64, .f32⟩
  | 78 => ⟨S1x64x64, .f32⟩
  | 79 => ⟨S64x64, .f32⟩
  | 80 => ⟨S1x64, .f32⟩
  | 81 => ⟨S64, .f32⟩
  | 82 => ⟨S64x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S1x64x64, .f32⟩
  | 92 => ⟨S64x64, .f32⟩
  | 93 => ⟨S1x64, .f32⟩
  | 94 => ⟨S64, .f32⟩
  | 95 => ⟨S64x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1600000x1, .f32⟩
  | 114 => ⟨S1600000x64, .f32⟩
  | 115 => ⟨S1600000x64, .f32⟩
  | 116 => ⟨S_, .f32⟩
  | 117 => ⟨S100000x64, .f32⟩
  | 118 => ⟨S1600000x1, .i32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x64, .f32⟩

abbrev hbmTy0_2 (i : Nat) : BufTy := match i % 128 with
  | 0 => ⟨S1600000x64, .f32⟩
  | 1 => ⟨S1600000x1, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S1x64x64, .f32⟩
  | 9 => ⟨S64x64, .f32⟩
  | 10 => ⟨S1x64, .f32⟩
  | 11 => ⟨S64, .f32⟩
  | 12 => ⟨S64x64, .f32⟩
  | 13 => ⟨S100000x64, .f32⟩
  | 14 => ⟨S1x64, .f32⟩
  | 15 => ⟨S100000x64, .f32⟩
  | 16 => ⟨S100000x64, .f32⟩
  | 17 => ⟨S_, .f32⟩
  | 18 => ⟨S100000x64, .f32⟩
  | 19 => ⟨S100000x64, .f32⟩
  | 20 => ⟨S100000x64, .f32⟩
  | 21 => ⟨S1x64x64, .f32⟩
  | 22 => ⟨S64x64, .f32⟩
  | 23 => ⟨S1x64, .f32⟩
  | 24 => ⟨S64, .f32⟩
  | 25 => ⟨S64x64, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S1600000x1, .f32⟩
  | 44 => ⟨S1600000x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x1, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S1x64x64, .f32⟩
  | 67 => ⟨S64x64, .f32⟩
  | 68 => ⟨S1x64, .f32⟩
  | 69 => ⟨S64, .f32⟩
  | 70 => ⟨S64x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S1x64x64, .f32⟩
  | 80 => ⟨S64x64, .f32⟩
  | 81 => ⟨S1x64, .f32⟩
  | 82 => ⟨S64, .f32⟩
  | 83 => ⟨S64x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_9 : Ref sig .tc := ⟨.hbm, 53, rfl⟩
abbrev main_v28 : Ref sig .tc := ⟨.hbm, 54, rfl⟩
abbrev main_v29 : Ref sig .tc := ⟨.hbm, 55, rfl⟩
abbrev main_c_10 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_11 : Ref sig .tc := ⟨.hbm, 63, rfl⟩
abbrev main_v36 : Ref sig .tc := ⟨.hbm, 64, rfl⟩
abbrev main_cst_12 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_13 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_14 : Ref sig .tc := ⟨.hbm, 73, rfl⟩
abbrev main_v43 : Ref sig .tc := ⟨.hbm, 74, rfl⟩
abbrev main_v44 : Ref sig .tc := ⟨.hbm, 75, rfl⟩
abbrev main_cst_15 : Ref sig .tc := ⟨.hbm, 76, rfl⟩
abbrev main_v45 : Ref sig .tc := ⟨.hbm, 77, rfl⟩
abbrev main_v46 : Ref sig .tc := ⟨.hbm, 78, rfl⟩
abbrev main_cst_16 : Ref sig .tc := ⟨.hbm, 79, rfl⟩
abbrev main_call2_v0 : Ref sig .tc := ⟨.hbm, 80, rfl⟩
abbrev main_call2_v1 : Ref sig .tc := ⟨.hbm, 81, rfl⟩
abbrev main_v47 : Ref sig .tc := ⟨.hbm, 82, rfl⟩
abbrev main_cst_17 : Ref sig .tc := ⟨.hbm, 83, rfl⟩
abbrev main_v48 : Ref sig .tc := ⟨.hbm, 84, rfl⟩
abbrev main_v49 : Ref sig .tc := ⟨.hbm, 85, rfl⟩
abbrev main_cst_18 : Ref sig .tc := ⟨.hbm, 86, rfl⟩
abbrev main_v50 : Ref sig .tc := ⟨.hbm, 87, rfl⟩
abbrev main_v51 : Ref sig .tc := ⟨.hbm, 88, rfl⟩
abbrev main_cst_19 : Ref sig .tc := ⟨.hbm, 89, rfl⟩
abbrev main_call3_v0 : Ref sig .tc := ⟨.hbm, 90, rfl⟩
abbrev main_call3_v1 : Ref sig .tc := ⟨.hbm, 91, rfl⟩
abbrev main_v52 : Ref sig .tc := ⟨.hbm, 92, rfl⟩
abbrev main_c_20 : Ref sig .tc := ⟨.hbm, 93, rfl⟩
abbrev main_v53 : Ref sig .tc := ⟨.hbm, 94, rfl⟩
abbrev main_v54 : Ref sig .tc := ⟨.hbm, 95, rfl⟩
abbrev main_c_21 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_22 : Ref sig .tc := ⟨.hbm, 102, rfl⟩
abbrev main_v60 : Ref sig .tc := ⟨.hbm, 103, rfl⟩
abbrev main_v61 : Ref sig .tc := ⟨.hbm, 104, rfl⟩
abbrev main_c_23 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_24 : Ref sig .tc := ⟨.hbm, 112, rfl⟩
abbrev main_v68 : Ref sig .tc := ⟨.hbm, 113, rfl⟩
abbrev main_v69 : Ref sig .tc := ⟨.hbm, 114, rfl⟩
abbrev main_c_25 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_26 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_27 : Ref sig .tc := ⟨.hbm, 128, rfl⟩
abbrev main_v81 : Ref sig .tc := ⟨.hbm, 129, rfl⟩
abbrev main_v82 : Ref sig .tc := ⟨.hbm, 130, rfl⟩
abbrev main_c_28 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_29 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_30 : Ref sig .tc := ⟨.hbm, 174, rfl⟩
abbrev main_v124 : Ref sig .tc := ⟨.hbm, 175, rfl⟩
abbrev main_v125 : Ref sig .tc := ⟨.hbm, 176, rfl⟩
abbrev main_c_31 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_32 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_c_33 : Ref sig .tc := ⟨.hbm, 190, rfl⟩
abbrev main_v137 : Ref sig .tc := ⟨.hbm, 191, rfl⟩
abbrev main_v138 : Ref sig .tc := ⟨.hbm, 192, rfl⟩
abbrev main_c_34 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_35 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_36 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_37 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_c_38 : Ref sig .tc := ⟨.hbm, 232, rfl⟩
abbrev main_v174 : Ref sig .tc := ⟨.hbm, 233, rfl⟩
abbrev main_v175 : Ref sig .tc := ⟨.hbm, 234, rfl⟩
abbrev main_c_39 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_cst_40 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_c_41 : Ref sig .tc := ⟨.hbm, 248, rfl⟩
abbrev main_v187 : Ref sig .tc := ⟨.hbm, 249, rfl⟩
abbrev main_v188 : Ref sig .tc := ⟨.hbm, 250, rfl⟩
abbrev main_c_42 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_43 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_44 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_cst_45 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_c_46 : Ref sig .tc := ⟨.hbm, 290, rfl⟩
abbrev main_v224 : Ref sig .tc := ⟨.hbm, 291, rfl⟩
abbrev main_v225 : Ref sig .tc := ⟨.hbm, 292, rfl⟩
abbrev main_c_47 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_cst_48 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_c_49 : Ref sig .tc := ⟨.hbm, 306, rfl⟩
abbrev main_v237 : Ref sig .tc := ⟨.hbm, 307, rfl⟩
abbrev main_v238 : Ref sig .tc := ⟨.hbm, 308, rfl⟩
abbrev main_c_50 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_cst_51 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_cst_52 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_cst_53 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_cst_54 : Ref sig .tc := ⟨.hbm, 348, rfl⟩
abbrev main_v274 : Ref sig .tc := ⟨.hbm, 349, rfl⟩
abbrev main_v275 : Ref sig .tc := ⟨.hbm, 350, rfl⟩
abbrev main_cst_55 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KBase.lean ====
/-
  The kernel's program up to its one region, and what the body writes, as plain definitions.

  `V` is the contents of core `c`'s buffers when the region is entered: the launch memory after the nine stretches of
  host operations that compute the propagated features.  The body reads the feature block (2000 rows), the four
  hop slabs of the two propagated stacks, the four weight matrices and biases of each branch and the zero-order
  weights and biases, through the literal rectangles named here, and stores ONE block of 2000 × 64 outputs:
  `blockOut`, the composition of the body's pure pieces in the order the body evaluates them.
-/
import proofs.«124106_j28664611733983_2_alg».proof.Proof.Gen.Kernel.Launch
import proofs.«124106_j28664611733983_2_alg».proof.Proof.Gen.Kernel.Skeleton
import proofs.«124106_j28664611733983_2_alg».proof.Proof.Gen.Kernel.Points
import Idealize.ShloMosaic.Lib.Pipeline.FrameBody

set_option maxRecDepth 16384

noncomputable section

namespace Cert.Kernel.Fr

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

/-- Core `c`'s TensorCore buffers when the region is entered: after the nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-! ## The body's rectangles -/

/-- The whole 2000 × 64 block (the features read, the output stored). -/
abbrev rX : Rect S2000x64 := Rect.unit (s := S2000x64) ![0, 0] S2000x64.size inb_S2000x64_S2000x64_0_0
/-- Hop `k`'s slab of a propagated stack's block. -/
abbrev rY0 : Rect S4x2000x64 := Rect.unit (s := S4x2000x64) ![0, 0, 0] S1x2000x64.size inb_S4x2000x64_S1x2000x64_0_0_0
abbrev rY1 : Rect S4x2000x64 := Rect.unit (s := S4x2000x64) ![1, 0, 0] S1x2000x64.size inb_S4x2000x64_S1x2000x64_1_0_0
abbrev rY2 : Rect S4x2000x64 := Rect.unit (s := S4x2000x64) ![2, 0, 0] S1x2000x64.size inb_S4x2000x64_S1x2000x64_2_0_0
abbrev rY3 : Rect S4x2000x64 := Rect.unit (s := S4x2000x64) ![3, 0, 0] S1x2000x64.size inb_S4x2000x64_S1x2000x64_3_0_0
/-- Hop `k`'s weight matrix. -/
abbrev rW0 : Rect S4x64x64 := Rect.unit (s := S4x64x64) ![0, 0, 0] S1x64x64.size inb_S4x64x64_S1x64x64_0_0_0
abbrev rW1 : Rect S4x64x64 := Rect.unit (s := S4x64x64) ![1, 0, 0] S1x64x64.size inb_S4x64x64_S1x64x64_1_0_0
abbrev rW2 : Rect S4x64x64 := Rect.unit (s := S4x64x64) ![2, 0, 0] S1x64x64.size inb_S4x64x64_S1x64x64_2_0_0
abbrev rW3 : Rect S4x64x64 := Rect.unit (s := S4x64x64) ![3, 0, 0] S1x64x64.size inb_S4x64x64_S1x64x64_3_0_0
/-- Hop `k`'s bias row. -/
abbrev rB0 : Rect S4x64 := Rect.unit (s := S4x64) ![0, 0] S1x64.size inb_S4x64_S1x64_0_0
abbrev rB1 : Rect S4x64 := Rect.unit (s := S4x64) ![1, 0] S1x64.size inb_S4x64_S1x64_1_0
abbrev rB2 : Rect S4x64 := Rect.unit (s := S4x64) ![2, 0] S1x64.size inb_S4x64_S1x64_2_0
abbrev rB3 : Rect S4x64 := Rect.unit (s := S4x64) ![3, 0] S1x64.size inb_S4x64_S1x64_3_0
/-- A whole zero-order weight matrix, and a whole zero-order bias. -/
abbrev rM : Rect S64x64 := Rect.unit (s := S64x64) ![0, 0] S64x64.size inb_S64x64_S64x64_0_0
abbrev rV : Rect S64 := Rect.unit (s := S64) ![0] S64.size inb_S64_S64_0

/-! ## What the body stores -/

/-- The block the body stores, from the eleven input blocks: `x0` the features, `x1` / `x2` the two propagated
    stacks, `x3`, `x4` / `x5`, `x6` the hop weights and biases of the two branches, `x7`, `x8` / `x9`, `x10` the zero-order
    ones.  Each `k0_payN` is one pure piece of the body. -/
def blockOut (x0 : Vec F S2000x64 .f32) (x1 x2 : Vec F S4x2000x64 .f32) (x3 : Vec F S4x64x64 .f32) (x4 : Vec F S4x64 .f32)
    (x5 : Vec F S4x64x64 .f32) (x6 : Vec F S4x64 .f32) (x7 : Vec F S64x64 .f32) (x8 : Vec F S64 .f32)
    (x9 : Vec F S64x64 .f32) (x10 : Vec F S64 .f32) : Vec F S2000x64 .f32 :=
  k0_pay1
    (k0_pay15 (k0_pay2 (View.ld x0 rX))
      (k0_pay11 (k0_pay7 (k0_pay4 (View.ld x2 rY0) (View.ld x5 rW0) (View.ld x6 rB0)) (View.ld x2 rY1) (View.ld x5 rW1) (View.ld x6 rB1))
        (k0_pay9 (View.ld x2 rY2)) (View.ld x5 rW2) (View.ld x6 rB2))
      (k0_pay13 (View.ld x2 rY3)) (View.ld x5 rW3) (View.ld x6 rB3) (View.ld x9 rM) (View.ld x10 rV))
    (k0_pay16 (k0_pay2 (View.ld x0 rX))
      (k0_pay10 (k0_pay6 (k0_pay3 (View.ld x1 rY0) (View.ld x3 rW0) (View.ld x4 rB0)) (k0_pay5 (View.ld x1 rY1)) (View.ld x3 rW1) (View.ld x4 rB1))
        (k0_pay8 (View.ld x1 rY2)) (View.ld x3 rW2) (View.ld x4 rB2))
      (k0_pay12 (View.ld x1 rY3)) (k0_pay14 (View.ld x3 rW3)) (View.ld x4 rB3) (View.ld x7 rM) (View.ld x8 rV))

/-- The output window's staging buffer after the body: its one store, of the whole block. -/
def out0_11 (x0 : Vec F S2000x64 .f32) (x1 x2 : Vec F S4x2000x64 .f32) (x3 : Vec F S4x64x64 .f32) (x4 : Vec F S4x64 .f32)
    (x5 : Vec F S4x64x64 .f32) (x6 : Vec F S4x64 .f32) (x7 : Vec F S64x64 .f32) (x8 : Vec F S64 .f32)
    (x9 : Vec F S64x64 .f32) (x10 : Vec F S64 .f32) : Vec F S2000x64 .f32 :=
  View.canon [⟨rX, blockOut x0 x1 x2 x3 x4 x5 x6 x7 x8 x9 x10⟩]

end Cert.Kernel.Fr

end
-- ==== Proof.KFrame.lean ====
/-
  The frame of the program: its one region launched over fifty row blocks, after the host operations that compute
  the propagated features.

  The body reads eleven input blocks through literal rectangles and stores the whole output block once, so at
  every grid point each input's staging buffer holds that input's block of the array the region found, and the
  output's staging buffer ends at `out0_11` of those blocks.  The region-entry contents `V` are the launch memory after
  the nine stretches of host operations; none of them writes an argument array, so the region — which writes
  only its result array — leaves every argument as launched.  Everything here holds at any float instance `F`.
-/
import proofs.«124106_j28664611733983_2_alg».proof.Proof.KBase
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program is the nine stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- In a final state satisfying the pipeline's post, every argument array is as launched: an argument a window
    stages is an input window's array, never written back; the edge list is staged by no window and written by nobody. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats 0 c).arrAt_in 0 rfl _).trans ((hA c 0).trans (V_main_arg0 m c))),
    ((h c).2 main_arg1 (Pipeline.mem_restRefs_of main_arg1 (by decide) (by decide))).trans (V_main_arg1 m c),
    ((h c).1 3).trans (((dats 0 c).arrAt_in 3 rfl _).trans ((hA c 3).trans (V_main_arg2 m c))),
    ((h c).1 4).trans (((dats 0 c).arrAt_in 4 rfl _).trans ((hA c 4).trans (V_main_arg3 m c))),
    ((h c).1 5).trans (((dats 0 c).arrAt_in 5 rfl _).trans ((hA c 5).trans (V_main_arg4 m c))),
    ((h c).1 6).trans (((dats 0 c).arrAt_in 6 rfl _).trans ((hA c 6).trans (V_main_arg5 m c))),
    ((h c).1 7).trans (((dats 0 c).arrAt_in 7 rfl _).trans ((hA c 7).trans (V_main_arg6 m c))),
    ((h c).1 8).trans (((dats 0 c).arrAt_in 8 rfl _).trans ((hA c 8).trans (V_main_arg7 m c))),
    ((h c).1 9).trans (((dats 0 c).arrAt_in 9 rfl _).trans ((hA c 9).trans (V_main_arg8 m c))),
    ((h c).1 10).trans (((dats 0 c).arrAt_in 10 rfl _).trans ((hA c 10).trans (V_main_arg9 m c)))⟩

/-- For any proof data whose arrays are the region-entry contents, a run to the pipeline's post is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_args m dats hA r h c) h

/-! ## What the body leaves in the output window's buffer -/

/-- The one store tiles the buffer, so it covers it. -/
theorem cover0_11 (p0 : Vec F S2000x64 .f32) (y : S2000x64.Idx) :
    ∃ pc ∈ ([⟨rX, p0⟩] : List (View.Piece (Elt F) S2000x64 .f32)), y ∈ pc.1.set :=
  View.cover_of_tiled [⟨rX, p0⟩] S2000x64.size (by rfl) y

/-! ## The body's triple -/

set_option maxHeartbeats 4000000 in
/-- The kernel body on whole staging memrefs, the inputs' at read contents `xW` and the output's at anything, runs to
    the continuation holding the inputs' as they were and the output's at `out0_11` of the inputs'. -/
theorem sound_kernel (c : Dev nD) (E : Set ℕ) (i : grid0.Coords) (arg1 : Memref sig .tc .vmem S2000x64 .f32) (harg1 : arg1.IsWhole) (arg2 : Memref sig .tc .vmem S4x2000x64 .f32) (harg2 : arg2.IsWhole) (arg3 : Memref sig .tc .vmem S4x2000x64 .f32) (harg3 : arg3.IsWhole) (arg4 : Memref sig .tc .vmem S4x64x64 .f32) (harg4 : arg4.IsWhole) (arg5 : Memref sig .tc .vmem S4x64 .f32) (harg5 : arg5.IsWhole) (arg6 : Memref sig .tc .vmem S4x64x64 .f32) (harg6 : arg6.IsWhole) (arg7 : Memref sig .tc .vmem S4x64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64 .f32) (harg11 : arg11.IsWhole) (arg12 : Memref sig .tc .vmem S2000x64 .f32) (harg12 : arg12.IsWhole)
    (x0 : Vec F S2000x64 .f32) (x1 : Vec F S4x2000x64 .f32) (x2 : Vec F S4x2000x64 .f32) (x3 : Vec F S4x64x64 .f32) (x4 : Vec F S4x64 .f32) (x5 : Vec F S4x64x64 .f32) (x6 : Vec F S4x64 .f32) (x7 : Vec F S64x64 .f32) (x8 : Vec F S64 .f32) (x9 : Vec F S64x64 .f32) (x10 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__faber_combine_kernel i arg1 harg1 arg2 harg2 arg3 harg3 arg4 harg4 arg5 harg5 arg6 harg6 arg7 harg7 arg8 harg8 arg9 harg9 arg10 harg10 arg11 harg11 arg12 harg12) K := by
  simp only [cc0__faber_combine_kernel_eq_skeleton]; unfold cc0__faber_combine_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The pipeline's proof data -/

/-- The proof data of the one pipeline on core `c`: the arrays as the region finds them; after the body at point `t` each
    input's buffer at its block and the output's at `out0_11` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (the definition projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Fr

end
-- ==== Proof.KIBase.lean ====
/-
  The kernel's program up to its one region, and what the body writes, as plain definitions.

  `V` is the contents of core `c`'s buffers when the region is entered: the launch memory after the nine stretches of
  host operations that compute the propagated features.  The body reads the feature block (2000 rows), the four
  hop slabs of the two propagated stacks, the four weight matrices and biases of each branch and the zero-order
  weights and biases, through the literal rectangles named here, and stores ONE block of 2000 × 64 outputs:
  `blockOut`, the composition of the body's pure pieces in the order the body evaluates them.
-/
import proofs.«124106_j28664611733983_2_alg».proof.Proof.Gen.KernelIdeal.Launch
import proofs.«124106_j28664611733983_2_alg».proof.Proof.Gen.KernelIdeal.Skeleton
import proofs.«124106_j28664611733983_2_alg».proof.Proof.Gen.KernelIdeal.Points
import Idealize.ShloMosaic.Lib.Pipeline.FrameBody

set_option maxRecDepth 16384

noncomputable section

namespace Cert.KernelIdeal.Fr

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-- Core `c`'s TensorCore buffers when the region is entered: after the nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-! ## The body's rectangles -/

/-- The whole 2000 × 64 block (the features read, the output stored). -/
abbrev rX : Rect S2000x64 := Rect.unit (s := S2000x64) ![0, 0] S2000x64.size inb_S2000x64_S2000x64_0_0
/-- Hop `k`'s slab of a propagated stack's block. -/
abbrev rY0 : Rect S4x2000x64 := Rect.unit (s := S4x2000x64) ![0, 0, 0] S1x2000x64.size inb_S4x2000x64_S1x2000x64_0_0_0
abbrev rY1 : Rect S4x2000x64 := Rect.unit (s := S4x2000x64) ![1, 0, 0] S1x2000x64.size inb_S4x2000x64_S1x2000x64_1_0_0
abbrev rY2 : Rect S4x2000x64 := Rect.unit (s := S4x2000x64) ![2, 0, 0] S1x2000x64.size inb_S4x2000x64_S1x2000x64_2_0_0
abbrev rY3 : Rect S4x2000x64 := Rect.unit (s := S4x2000x64) ![3, 0, 0] S1x2000x64.size inb_S4x2000x64_S1x2000x64_3_0_0
/-- Hop `k`'s weight matrix. -/
abbrev rW0 : Rect S4x64x64 := Rect.unit (s := S4x64x64) ![0, 0, 0] S1x64x64.size inb_S4x64x64_S1x64x64_0_0_0
abbrev rW1 : Rect S4x64x64 := Rect.unit (s := S4x64x64) ![1, 0, 0] S1x64x64.size inb_S4x64x64_S1x64x64_1_0_0
abbrev rW2 : Rect S4x64x64 := Rect.unit (s := S4x64x64) ![2, 0, 0] S1x64x64.size inb_S4x64x64_S1x64x64_2_0_0
abbrev rW3 : Rect S4x64x64 := Rect.unit (s := S4x64x64) ![3, 0, 0] S1x64x64.size inb_S4x64x64_S1x64x64_3_0_0
/-- Hop `k`'s bias row. -/
abbrev rB0 : Rect S4x64 := Rect.unit (s := S4x64) ![0, 0] S1x64.size inb_S4x64_S1x64_0_0
abbrev rB1 : Rect S4x64 := Rect.unit (s := S4x64) ![1, 0] S1x64.size inb_S4x64_S1x64_1_0
abbrev rB2 : Rect S4x64 := Rect.unit (s := S4x64) ![2, 0] S1x64.size inb_S4x64_S1x64_2_0
abbrev rB3 : Rect S4x64 := Rect.unit (s := S4x64) ![3, 0] S1x64.size inb_S4x64_S1x64_3_0
/-- A whole zero-order weight matrix, and a whole zero-order bias. -/
abbrev rM : Rect S64x64 := Rect.unit (s := S64x64) ![0, 0] S64x64.size inb_S64x64_S64x64_0_0
abbrev rV : Rect S64 := Rect.unit (s := S64) ![0] S64.size inb_S64_S64_0

/-! ## What the body stores -/

/-- The block the body stores, from the eleven input blocks: `x0` the features, `x1` / `x2` the two propagated
    stacks, `x3`, `x4` / `x5`, `x6` the hop weights and biases of the two branches, `x7`, `x8` / `x9`, `x10` the zero-order
    ones.  Each `k0_payN` is one pure piece of the body. -/
def blockOut (x0 : Vec F S2000x64 .f32) (x1 x2 : Vec F S4x2000x64 .f32) (x3 : Vec F S4x64x64 .f32) (x4 : Vec F S4x64 .f32)
    (x5 : Vec F S4x64x64 .f32) (x6 : Vec F S4x64 .f32) (x7 : Vec F S64x64 .f32) (x8 : Vec F S64 .f32)
    (x9 : Vec F S64x64 .f32) (x10 : Vec F S64 .f32) : Vec F S2000x64 .f32 :=
  k0_pay1
    (k0_pay15 (k0_pay2 (View.ld x0 rX))
      (k0_pay11 (k0_pay7 (k0_pay4 (View.ld x2 rY0) (View.ld x5 rW0) (View.ld x6 rB0)) (View.ld x2 rY1) (View.ld x5 rW1) (View.ld x6 rB1))
        (k0_pay9 (View.ld x2 rY2)) (View.ld x5 rW2) (View.ld x6 rB2))
      (k0_pay13 (View.ld x2 rY3)) (View.ld x5 rW3) (View.ld x6 rB3) (View.ld x9 rM) (View.ld x10 rV))
    (k0_pay16 (k0_pay2 (View.ld x0 rX))
      (k0_pay10 (k0_pay6 (k0_pay3 (View.ld x1 rY0) (View.ld x3 rW0) (View.ld x4 rB0)) (k0_pay5 (View.ld x1 rY1)) (View.ld x3 rW1) (View.ld x4 rB1))
        (k0_pay8 (View.ld x1 rY2)) (View.ld x3 rW2) (View.ld x4 rB2))
      (k0_pay12 (View.ld x1 rY3)) (k0_pay14 (View.ld x3 rW3)) (View.ld x4 rB3) (View.ld x7 rM) (View.ld x8 rV))

/-- The output window's staging buffer after the body: its one store, of the whole block. -/
def out0_11 (x0 : Vec F S2000x64 .f32) (x1 x2 : Vec F S4x2000x64 .f32) (x3 : Vec F S4x64x64 .f32) (x4 : Vec F S4x64 .f32)
    (x5 : Vec F S4x64x64 .f32) (x6 : Vec F S4x64 .f32) (x7 : Vec F S64x64 .f32) (x8 : Vec F S64 .f32)
    (x9 : Vec F S64x64 .f32) (x10 : Vec F S64 .f32) : Vec F S2000x64 .f32 :=
  View.canon [⟨rX, blockOut x0 x1 x2 x3 x4 x5 x6 x7 x8 x9 x10⟩]

end Cert.KernelIdeal.Fr

end
-- ==== Proof.KIFrame.lean ====
/-
  The frame of the program: its one region launched over fifty row blocks, after the host operations that compute
  the propagated features.

  The body reads eleven input blocks through literal rectangles and stores the whole output block once, so at
  every grid point each input's staging buffer holds that input's block of the array the region found, and the
  output's staging buffer ends at `out0_11` of those blocks.  The region-entry contents `V` are the launch memory after
  the nine stretches of host operations; none of them writes an argument array, so the region — which writes
  only its result array — leaves every argument as launched.  Everything here holds at any float instance `F`.
-/
import proofs.«124106_j28664611733983_2_alg».proof.Proof.KIBase
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program is the nine stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- In a final state satisfying the pipeline's post, every argument array is as launched: an argument a window
    stages is an input window's array, never written back; the edge list is staged by no window and written by nobody. -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats 0 c).arrAt_in 0 rfl _).trans ((hA c 0).trans (V_main_arg0 m c))),
    ((h c).2 main_arg1 (Pipeline.mem_restRefs_of main_arg1 (by decide) (by decide))).trans (V_main_arg1 m c),
    ((h c).1 3).trans (((dats 0 c).arrAt_in 3 rfl _).trans ((hA c 3).trans (V_main_arg2 m c))),
    ((h c).1 4).trans (((dats 0 c).arrAt_in 4 rfl _).trans ((hA c 4).trans (V_main_arg3 m c))),
    ((h c).1 5).trans (((dats 0 c).arrAt_in 5 rfl _).trans ((hA c 5).trans (V_main_arg4 m c))),
    ((h c).1 6).trans (((dats 0 c).arrAt_in 6 rfl _).trans ((hA c 6).trans (V_main_arg5 m c))),
    ((h c).1 7).trans (((dats 0 c).arrAt_in 7 rfl _).trans ((hA c 7).trans (V_main_arg6 m c))),
    ((h c).1 8).trans (((dats 0 c).arrAt_in 8 rfl _).trans ((hA c 8).trans (V_main_arg7 m c))),
    ((h c).1 9).trans (((dats 0 c).arrAt_in 9 rfl _).trans ((hA c 9).trans (V_main_arg8 m c))),
    ((h c).1 10).trans (((dats 0 c).arrAt_in 10 rfl _).trans ((hA c 10).trans (V_main_arg9 m c)))⟩

/-- For any proof data whose arrays are the region-entry contents, a run to the pipeline's post is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_args m dats hA r h c) h

/-! ## What the body leaves in the output window's buffer -/

/-- The one store tiles the buffer, so it covers it. -/
theorem cover0_11 (p0 : Vec F S2000x64 .f32) (y : S2000x64.Idx) :
    ∃ pc ∈ ([⟨rX, p0⟩] : List (View.Piece (Elt F) S2000x64 .f32)), y ∈ pc.1.set :=
  View.cover_of_tiled [⟨rX, p0⟩] S2000x64.size (by rfl) y

/-! ## The body's triple -/

set_option maxHeartbeats 4000000 in
/-- The kernel body on whole staging memrefs, the inputs' at read contents `xW` and the output's at anything, runs to
    the continuation holding the inputs' as they were and the output's at `out0_11` of the inputs'. -/
theorem sound_kernel (c : Dev nD) (E : Set ℕ) (i : grid0.Coords) (arg1 : Memref sig .tc .vmem S2000x64 .f32) (harg1 : arg1.IsWhole) (arg2 : Memref sig .tc .vmem S4x2000x64 .f32) (harg2 : arg2.IsWhole) (arg3 : Memref sig .tc .vmem S4x2000x64 .f32) (harg3 : arg3.IsWhole) (arg4 : Memref sig .tc .vmem S4x64x64 .f32) (harg4 : arg4.IsWhole) (arg5 : Memref sig .tc .vmem S4x64 .f32) (harg5 : arg5.IsWhole) (arg6 : Memref sig .tc .vmem S4x64x64 .f32) (harg6 : arg6.IsWhole) (arg7 : Memref sig .tc .vmem S4x64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64 .f32) (harg11 : arg11.IsWhole) (arg12 : Memref sig .tc .vmem S2000x64 .f32) (harg12 : arg12.IsWhole)
    (x0 : Vec F S2000x64 .f32) (x1 : Vec F S4x2000x64 .f32) (x2 : Vec F S4x2000x64 .f32) (x3 : Vec F S4x64x64 .f32) (x4 : Vec F S4x64 .f32) (x5 : Vec F S4x64x64 .f32) (x6 : Vec F S4x64 .f32) (x7 : Vec F S64x64 .f32) (x8 : Vec F S64 .f32) (x9 : Vec F S64x64 .f32) (x10 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__faber_combine_kernel i arg1 harg1 arg2 harg2 arg3 harg3 arg4 harg4 arg5 harg5 arg6 harg6 arg7 harg7 arg8 harg8 arg9 harg9 arg10 harg10 arg11 harg11 arg12 harg12) K := by
  simp only [cc0__faber_combine_kernel_eq_skeleton]; unfold cc0__faber_combine_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The pipeline's proof data -/

/-- The proof data of the one pipeline on core `c`: the arrays as the region finds them; after the body at point `t` each
    input's buffer at its block and the output's at `out0_11` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (the definition projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' memrefs hold their blocks, so `sound_kernel` applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the proof data gives and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Fr

end
-- ==== Proof.KIBlocks.lean ====
/-
  Where each window's block sits in its array.

  The grid has fifty points; at point `t` the feature window and the output window hold rows 2000·t … 2000·t + 1999
  of their arrays (all 64 columns), the two stacked windows hold those rows of all four hop slabs, and the eight
  weight and bias windows hold their whole arrays at every point.  An element of a block sits in the array, on each
  axis, at the block index times the block's extent plus its own coordinate; the index maps are decided once over
  the grid.  The output's fifty row blocks cover its array: row r lies in block r / 2000.
-/
import proofs.«124106_j28664611733983_2_alg».proof.Proof.KIFrame
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-- Every row block of the output array is some point's. -/
theorem idx_onto11 : ∀ q0 : Fin 50, ∃ t : Fin cfg0.N, win0_11.index t = ![q0.val, 0] :=
  (by decide +kernel : ∀ q0 : Fin 50, ∃ t : Fin grid0.N, win0_11.index t = ![q0.val, 0])

/-! ## Each input window's block, read at an entry -/

/-- Window 0's block at point `t`, at an entry, is its array's entry in row 2000·t + p. -/
theorem blk0 (c : Dev nD) (t : Fin cfg0.N) (p : Fin 2000) (q : Fin 64) (n : Fin 100000) (hn : n.val = t.val * 2000 + p.val) :
    iblk m c 0 t (ix2 p q) = (V m c main_arg0 : S100000x64.Idx → Elt F .f32) (ix2 n q) := by
  show V m c main_arg0 (((cfg0.win 0).blk t).view.emb (ix2 p q)) = V m c main_arg0 (ix2 n q)
  refine congrArg _ (funext fun ax => Fin.ext ?_)
  obtain ⟨e0, e1⟩ := idx0 t
  match ax with
  | ⟨0, _⟩ => show win0_0.index t (0 : Fin 2) * 2000 + 1 * p.val = n.val; omega
  | ⟨1, _⟩ => show win0_0.index t (1 : Fin 2) * 64 + 1 * q.val = q.val; omega
/-- Window 1's block at point `t`, at an entry, is its array's entry in row 2000·t + p. -/
theorem blk1 (c : Dev nD) (t : Fin cfg0.N) (k : Fin 4) (p : Fin 2000) (q : Fin 64) (n : Fin 100000) (hn : n.val = t.val * 2000 + p.val) :
    iblk m c 1 t (ix3 k p q) = (V m c main_v176 : S4x100000x64.Idx → Elt F .f32) (ix3 k n q) := by
  show V m c main_v176 (((cfg0.win 1).blk t).view.emb (ix3 k p q)) = V m c main_v176 (ix3 k n q)
  refine congrArg _ (funext fun ax => Fin.ext ?_)
  obtain ⟨e0, e1, e2⟩ := idx1 t
  match ax with
  | ⟨0, _⟩ => show win0_1.index t (0 : Fin 3) * 4 + 1 * k.val = k.val; omega
  | ⟨1, _⟩ => show win0_1.index t (1 : Fin 3) * 2000 + 1 * p.val = n.val; omega
  | ⟨2, _⟩ => show win0_1.index t (2 : Fin 3) * 64 + 1 * q.val = q.val; omega
/-- Window 2's block at point `t`, at an entry, is its array's entry in row 2000·t + p. -/
theorem blk2 (c : Dev nD) (t : Fin cfg0.N) (k : Fin 4) (p : Fin 2000) (q : Fin 64) (n : Fin 100000) (hn : n.val = t.val * 2000 + p.val) :
    iblk m c 2 t (ix3 k p q) = (V m c main_v181 : S4x100000x64.Idx → Elt F .f32) (ix3 k n q) := by
  show V m c main_v181 (((cfg0.win 2).blk t).view.emb (ix3 k p q)) = V m c main_v181 (ix3 k n q)
  refine congrArg _ (funext fun ax => Fin.ext ?_)
  obtain ⟨e0, e1, e2⟩ := idx2 t
  match ax with
  | ⟨0, _⟩ => show win0_2.index t (0 : Fin 3) * 4 + 1 * k.val = k.val; omega
  | ⟨1, _⟩ => show win0_2.index t (1 : Fin 3) * 2000 + 1 * p.val = n.val; omega
  | ⟨2, _⟩ => show win0_2.index t (2 : Fin 3) * 64 + 1 * q.val = q.val; omega
/-- Window 3's block at point `t`, at an entry, is its array's entry at the same index. -/
theorem blk3 (c : Dev nD) (t : Fin cfg0.N) (k : Fin 4) (a : Fin 64) (b : Fin 64) :
    iblk m c 3 t (ix3 k a b) = (V m c main_arg2 : S4x64x64.Idx → Elt F .f32) (ix3 k a b) := by
  show V m c main_arg2 (((cfg0.win 3).blk t).view.emb (ix3 k a b)) = V m c main_arg2 (ix3 k a b)
  refine congrArg _ (funext fun ax => Fin.ext ?_)
  obtain ⟨e0, e1, e2⟩ := idx3 t
  match ax with
  | ⟨0, _⟩ => show win0_3.index t (0 : Fin 3) * 4 + 1 * k.val = k.val; omega
  | ⟨1, _⟩ => show win0_3.index t (1 : Fin 3) * 64 + 1 * a.val = a.val; omega
  | ⟨2, _⟩ => show win0_3.index t (2 : Fin 3) * 64 + 1 * b.val = b.val; omega
/-- Window 4's block at point `t`, at an entry, is its array's entry at the same index. -/
theorem blk4 (c : Dev nD) (t : Fin cfg0.N) (k : Fin 4) (a : Fin 64) :
    iblk m c 4 t (ix2 k a) = (V m c main_arg3 : S4x64.Idx → Elt F .f32) (ix2 k a) := by
  show V m c main_arg3 (((cfg0.win 4).blk t).view.emb (ix2 k a)) = V m c main_arg3 (ix2 k a)
  refine congrArg _ (funext fun ax => Fin.ext ?_)
  obtain ⟨e0, e1⟩ := idx4 t
  match ax with
  | ⟨0, _⟩ => show win0_4.index t (0 : Fin 2) * 4 + 1 * k.val = k.val; omega
  | ⟨1, _⟩ => show win0_4.index t (1 : Fin 2) * 64 + 1 * a.val = a.val; omega
/-- Window 5's block at point `t`, at an entry, is its array's entry at the same index. -/
theorem blk5 (c : Dev nD) (t : Fin cfg0.N) (k : Fin 4) (a : Fin 64) (b : Fin 64) :
    iblk m c 5 t (ix3 k a b) = (V m c main_arg4 : S4x64x64.Idx → Elt F .f32) (ix3 k a b) := by
  show V m c main_arg4 (((cfg0.win 5).blk t).view.emb (ix3 k a b)) = V m c main_arg4 (ix3 k a b)
  refine congrArg _ (funext fun ax => Fin.ext ?_)
  obtain ⟨e0, e1, e2⟩ := idx5 t
  match ax with
  | ⟨0, _⟩ => show win0_5.index t (0 : Fin 3) * 4 + 1 * k.val = k.val; omega
  | ⟨1, _⟩ => show win0_5.index t (1 : Fin 3) * 64 + 1 * a.val = a.val; omega
  | ⟨2, _⟩ => show win0_5.index t (2 : Fin 3) * 64 + 1 * b.val = b.val; omega
/-- Window 6's block at point `t`, at an entry, is its array's entry at the same index. -/
theorem blk6 (c : Dev nD) (t : Fin cfg0.N) (k : Fin 4) (a : Fin 64) :
    iblk m c 6 t (ix2 k a) = (V m c main_arg5 : S4x64.Idx → Elt F .f32) (ix2 k a) := by
  show V m c main_arg5 (((cfg0.win 6).blk t).view.emb (ix2 k a)) = V m c main_arg5 (ix2 k a)
  refine congrArg _ (funext fun ax => Fin.ext ?_)
  obtain ⟨e0, e1⟩ := idx6 t
  match ax with
  | ⟨0, _⟩ => show win0_6.index t (0 : Fin 2) * 4 + 1 * k.val = k.val; omega
  | ⟨1, _⟩ => show win0_6.index t (1 : Fin 2) * 64 + 1 * a.val = a.val; omega
/-- Window 7's block at point `t`, at an entry, is its array's entry at the same index. -/
theorem blk7 (c : Dev nD) (t : Fin cfg0.N) (k : Fin 64) (a : Fin 64) :
    iblk m c 7 t (ix2 k a) = (V m c main_arg6 : S64x64.Idx → Elt F .f32) (ix2 k a) := by
  show V m c main_arg6 (((cfg0.win 7).blk t).view.emb (ix2 k a)) = V m c main_arg6 (ix2 k a)
  refine congrArg _ (funext fun ax => Fin.ext ?_)
  obtain ⟨e0, e1⟩ := idx7 t
  match ax with
  | ⟨0, _⟩ => show win0_7.index t (0 : Fin 2) * 64 + 1 * k.val = k.val; omega
  | ⟨1, _⟩ => show win0_7.index t (1 : Fin 2) * 64 + 1 * a.val = a.val; omega
/-- Window 8's block at point `t`, at an entry, is its array's entry at the same index. -/
theorem blk8 (c : Dev nD) (t : Fin cfg0.N) (a : Fin 64) :
    iblk m c 8 t (ix1 a) = (V m c main_arg7 : S64.Idx → Elt F .f32) (ix1 a) := by
  show V m c main_arg7 (((cfg0.win 8).blk t).view.emb (ix1 a)) = V m c main_arg7 (ix1 a)
  refine congrArg _ (funext fun ax => Fin.ext ?_)
  have e0 := idx8 t
  match ax with
  | ⟨0, _⟩ => show win0_8.index t (0 : Fin 1) * 64 + 1 * a.val = a.val; omega
/-- Window 9's block at point `t`, at an entry, is its array's entry at the same index. -/
theorem blk9 (c : Dev nD) (t : Fin cfg0.N) (k : Fin 64) (a : Fin 64) :
    iblk m c 9 t (ix2 k a) = (V m c main_arg8 : S64x64.Idx → Elt F .f32) (ix2 k a) := by
  show V m c main_arg8 (((cfg0.win 9).blk t).view.emb (ix2 k a)) = V m c main_arg8 (ix2 k a)
  refine congrArg _ (funext fun ax => Fin.ext ?_)
  obtain ⟨e0, e1⟩ := idx9 t
  match ax with
  | ⟨0, _⟩ => show win0_9.index t (0 : Fin 2) * 64 + 1 * k.val = k.val; omega
  | ⟨1, _⟩ => show win0_9.index t (1 : Fin 2) * 64 + 1 * a.val = a.val; omega
/-- Window 10's block at point `t`, at an entry, is its array's entry at the same index. -/
theorem blk10 (c : Dev nD) (t : Fin cfg0.N) (a : Fin 64) :
    iblk m c 10 t (ix1 a) = (V m c main_arg9 : S64.Idx → Elt F .f32) (ix1 a) := by
  show V m c main_arg9 (((cfg0.win 10).blk t).view.emb (ix1 a)) = V m c main_arg9 (ix1 a)
  refine congrArg _ (funext fun ax => Fin.ext ?_)
  have e0 := idx10 t
  match ax with
  | ⟨0, _⟩ => show win0_10.index t (0 : Fin 1) * 64 + 1 * a.val = a.val; omega

/-! ## The output window's blocks -/

theorem hz11 : (![0, 0] : Fin 2 → Nat) = fun _ => 0 := funext fun a => by fin_cases a <;> rfl

/-- An entry of the output block at point `t` sits in the output array in row 2000·t + p, column d. -/
theorem emb11 (t : Fin cfg0.N) (p : Fin 2000) (d : Fin 64) (n : Fin 100000) (hn : n.val = t.val * 2000 + p.val) :
    ((cfg0.win 11).blk t).view.emb (ix2 p d) = (ix2 n d : S100000x64.Idx) := by
  refine funext fun ax => Fin.ext ?_
  obtain ⟨e0, e1⟩ := idx11 t
  match ax with
  | ⟨0, _⟩ => show win0_11.index t (0 : Fin 2) * 2000 + 1 * p.val = n.val; omega
  | ⟨1, _⟩ => show win0_11.index t (1 : Fin 2) * 64 + 1 * d.val = d.val; omega

/-- An index of the output array is in point `t`'s block iff each coordinate is in the block's range on its axis. -/
theorem mem_blk11 (t : Fin cfg0.N) (i : S100000x64.Idx) :
    i ∈ ((cfg0.win 11).blk t).view.set ↔ ∀ a : Fin 2, win0_11.index t a * S2000x64.size a ≤ (i a).val ∧ (i a).val < win0_11.index t a * S2000x64.size a + S2000x64.size a := by
  show i ∈ ((View.whole main_v182).slice (win0_11.rect t)).set ↔ _
  rw [View.set_slice_whole, Rect.mem_set_unit]
  exact Iff.rfl

/-- The fifty row blocks cover the output array: row r is in block r / 2000. -/
theorem cover11 (i : S100000x64.Idx) :
    ∃ t : Fin cfg0.N, (cfg0.win 11).flush t = true ∧ i ∈ ((cfg0.win 11).blk t).view.set := by
  have hi0 : (i 0).val < 100000 := (i 0).isLt
  have hi1 : (i 1).val < 64 := (i 1).isLt
  obtain ⟨t, ht⟩ := idx_onto11 ⟨(i 0).val / 2000, by omega⟩
  have q0 : win0_11.index t (0 : Fin 2) = (i 0).val / 2000 := congrFun ht 0
  have q1 : win0_11.index t (1 : Fin 2) = 0 := congrFun ht 1
  refine ⟨t, flush0_11 t, ?_⟩
  rw [mem_blk11]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 64 ≤ (i 1).val ∧ (i 1).val < win0_11.index t (1 : Fin 2) * 64 + 64; omega

end Cert.KernelIdeal.Fr

end
-- ==== Proof.Spec.lean ====
/-
  The dense combination, stated once over plain coordinate functions.

  One linear layer at entry (n, d) is  Σ_q h(n, q) · W(d, q) + b(d)  (a row of `h` against a row of `W`, that is
  `h · Wᵀ + b`).  A branch combines four such layers of the propagated features with the zero-order layer of the
  input features; the two arrangements below differ only in WHERE the zero-order layer is added and in a leading
  zero summand:

    accumulated:  ((((0 + L₀) + L₁·½) + L₂·¼) + L₃·⅛) + L_z
    direct:       (((L₀ + L_z) + L₁·½) + L₂·¼) + L₃·⅛

  On the extended reals addition is a commutative monoid, so the two are equal for ALL values (no finiteness is
  needed: no distributivity, no cancellation).  The output is  ½·(sd branch) + ½·(ds branch)  in both arrangements.
  The scale literals are kept as their binary words; they are the same words on both sides and are never evaluated.
-/
import Idealize.ShloMosaic.Lib.ValueIdx
import Idealize.ShloMosaic.PureOps.Ideal.Laws

noncomputable section

open scoped BigOperators

namespace Cert.Faber

open Idealize.ShloMosaic

variable {ι : Type}

/-- One linear layer at entry `(n, d)`: row `n` of `h` against row `d` of `W`, plus the bias. -/
def lin (h : ι → Fin 64 → EReal) (W : Fin 64 → Fin 64 → EReal) (b : Fin 64 → EReal) (n : ι) (d : Fin 64) : EReal :=
  (∑ q : Fin 64, h n q * W d q) + b d

/-- A branch, accumulated hop by hop from zero, the zero-order layer added last. -/
def branchAcc (x : ι → Fin 64 → EReal) (Y : Fin 4 → ι → Fin 64 → EReal)
    (W : Fin 4 → Fin 64 → Fin 64 → EReal) (b : Fin 4 → Fin 64 → EReal)
    (W0 : Fin 64 → Fin 64 → EReal) (b0 : Fin 64 → EReal) (n : ι) (d : Fin 64) : EReal :=
  ((((0 + lin (Y 0) (W 0) (b 0) n d)
      + lin (Y 1) (W 1) (b 1) n d * Ideal.ofBits .f32 0x3F000000#32)
      + lin (Y 2) (W 2) (b 2) n d * Ideal.ofBits .f32 0x3E800000#32)
      + lin (Y 3) (W 3) (b 3) n d * Ideal.ofBits .f32 0x3E000000#32)
    + lin x W0 b0 n d

/-- A branch, the zero-order layer added to the first hop. -/
def branchDir (x : ι → Fin 64 → EReal) (Y : Fin 4 → ι → Fin 64 → EReal)
    (W : Fin 4 → Fin 64 → Fin 64 → EReal) (b : Fin 4 → Fin 64 → EReal)
    (W0 : Fin 64 → Fin 64 → EReal) (b0 : Fin 64 → EReal) (n : ι) (d : Fin 64) : EReal :=
  (((lin (Y 0) (W 0) (b 0) n d + lin x W0 b0 n d)
      + lin (Y 1) (W 1) (b 1) n d * Ideal.ofBits .f32 0x3F000000#32)
      + lin (Y 2) (W 2) (b 2) n d * Ideal.ofBits .f32 0x3E800000#32)
    + lin (Y 3) (W 3) (b 3) n d * Ideal.ofBits .f32 0x3E000000#32

/-- The two arrangements of a branch agree on the extended reals. -/
theorem branchAcc_eq_branchDir (x : ι → Fin 64 → EReal) (Y : Fin 4 → ι → Fin 64 → EReal)
    (W : Fin 4 → Fin 64 → Fin 64 → EReal) (b : Fin 4 → Fin 64 → EReal)
    (W0 : Fin 64 → Fin 64 → EReal) (b0 : Fin 64 → EReal) (n : ι) (d : Fin 64) :
    branchAcc x Y W b W0 b0 n d = branchDir x Y W b W0 b0 n d := by
  unfold branchAcc branchDir
  rw [zero_add]
  generalize lin (Y 0) (W 0) (b 0) n d = l0
  generalize lin (Y 1) (W 1) (b 1) n d * Ideal.ofBits .f32 0x3F000000#32 = l1
  generalize lin (Y 2) (W 2) (b 2) n d * Ideal.ofBits .f32 0x3E800000#32 = l2
  generalize lin (Y 3) (W 3) (b 3) n d * Ideal.ofBits .f32 0x3E000000#32 = l3
  generalize lin x W0 b0 n d = lz
  rw [add_right_comm (l0 + l1 + l2) l3 lz, add_right_comm (l0 + l1) l2 lz, add_right_comm l0 l1 lz]

/-- The output as the kernel body accumulates it. -/
def outAcc (x : ι → Fin 64 → EReal) (Y T : Fin 4 → ι → Fin 64 → EReal)
    (Wsd : Fin 4 → Fin 64 → Fin 64 → EReal) (bsd : Fin 4 → Fin 64 → EReal)
    (Wds : Fin 4 → Fin 64 → Fin 64 → EReal) (bds : Fin 4 → Fin 64 → EReal)
    (W0sd : Fin 64 → Fin 64 → EReal) (b0sd : Fin 64 → EReal)
    (W0ds : Fin 64 → Fin 64 → EReal) (b0ds : Fin 64 → EReal) (n : ι) (d : Fin 64) : EReal :=
  Ideal.ofBits .f32 0x3F000000#32 * branchAcc x Y Wsd bsd W0sd b0sd n d
    + Ideal.ofBits .f32 0x3F000000#32 * branchAcc x T Wds bds W0ds b0ds n d

/-- The output as the reference writes it. -/
def outDir (x : ι → Fin 64 → EReal) (Y T : Fin 4 → ι → Fin 64 → EReal)
    (Wsd : Fin 4 → Fin 64 → Fin 64 → EReal) (bsd : Fin 4 → Fin 64 → EReal)
    (Wds : Fin 4 → Fin 64 → Fin 64 → EReal) (bds : Fin 4 → Fin 64 → EReal)
    (W0sd : Fin 64 → Fin 64 → EReal) (b0sd : Fin 64 → EReal)
    (W0ds : Fin 64 → Fin 64 → EReal) (b0ds : Fin 64 → EReal) (n : ι) (d : Fin 64) : EReal :=
  Ideal.ofBits .f32 0x3F000000#32 * branchDir x Y Wsd bsd W0sd b0sd n d
    + Ideal.ofBits .f32 0x3F000000#32 * branchDir x T Wds bds W0ds b0ds n d

/-- The two arrangements of the output agree on the extended reals, for all values. -/
theorem outAcc_eq_outDir (x : ι → Fin 64 → EReal) (Y T : Fin 4 → ι → Fin 64 → EReal)
    (Wsd : Fin 4 → Fin 64 → Fin 64 → EReal) (bsd : Fin 4 → Fin 64 → EReal)
    (Wds : Fin 4 → Fin 64 → Fin 64 → EReal) (bds : Fin 4 → Fin 64 → EReal)
    (W0sd : Fin 64 → Fin 64 → EReal) (b0sd : Fin 64 → EReal)
    (W0ds : Fin 64 → Fin 64 → EReal) (b0ds : Fin 64 → EReal) (n : ι) (d : Fin 64) :
    outAcc x Y T Wsd bsd Wds bds W0sd b0sd W0ds b0ds n d = outDir x Y T Wsd bsd Wds bds W0sd b0sd W0ds b0ds n d := by
  unfold outAcc outDir
  rw [branchAcc_eq_branchDir, branchAcc_eq_branchDir]

/-- The output at a row depends only on that row of the features and of the propagated stacks: two families with
    equal rows give equal outputs (a block's row against the array's row it is a copy of). -/
theorem outAcc_congr {ι' : Type} (x : ι → Fin 64 → EReal) (Y T : Fin 4 → ι → Fin 64 → EReal)
    (x' : ι' → Fin 64 → EReal) (Y' T' : Fin 4 → ι' → Fin 64 → EReal)
    (Wsd : Fin 4 → Fin 64 → Fin 64 → EReal) (bsd : Fin 4 → Fin 64 → EReal)
    (Wds : Fin 4 → Fin 64 → Fin 64 → EReal) (bds : Fin 4 → Fin 64 → EReal)
    (W0sd : Fin 64 → Fin 64 → EReal) (b0sd : Fin 64 → EReal)
    (W0ds : Fin 64 → Fin 64 → EReal) (b0ds : Fin 64 → EReal) (n : ι) (n' : ι') (d : Fin 64)
    (hx : ∀ q, x n q = x' n' q) (hY : ∀ k q, Y k n q = Y' k n' q) (hT : ∀ k q, T k n q = T' k n' q) :
    outAcc x Y T Wsd bsd Wds bds W0sd b0sd W0ds b0ds n d = outAcc x' Y' T' Wsd bsd Wds bds W0sd b0sd W0ds b0ds n' d := by
  unfold outAcc branchAcc lin
  simp only [hx, hY, hT]

end Cert.Faber

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.KIPay.lean ====
/-
  The block the kernel body stores, read at an entry.

  The body composes sixteen pure pieces.  Each hop's piece is one dense layer on the matrix unit — the rows of a slab
  against the TRANSPOSE of a 64 × 64 weight matrix, accumulated from zero, plus the bias as a row broadcast over the
  2000 rows — so its entry (p, d) is  Σ_q slab(p, q) · W(d, q) + b(d),  the linear layer `Cert.Faber.lin`.  On the
  extended reals a narrowing of the format is the identity, a reshape that drops a leading unit axis reads coordinate 0
  of that axis, a scalar splat reads the scalar and sums and products are entrywise; the zero word is the number 0.  The
  sd branch starts from the zero splat, adds the hops scaled by 1, ½, ¼, ⅛ and then the zero-order layer of the features,
  and is halved; the ds branch is built the same way and halved in the last piece.  Read through the unit rectangles
  (offset + 1 · coordinate on every axis) the entry is the accumulated arrangement `Cert.Faber.outAcc` of the eleven
  input blocks.  The scale words are the same on both sides and are never evaluated.
-/
import proofs.«124106_j28664611733983_2_alg».proof.Proof.KIBase
import proofs.«124106_j28664611733983_2_alg».proof.Proof.Spec
import proofs.«124106_j28664611733983_2_alg».proof.Proof.LibDense
import proofs.«124106_j28664611733983_2_alg».proof.Proof.LibLayout
import Idealize.ShloMosaic.Lib.ValueLayout
import Idealize.ShloMosaic.PureOps.Ideal.Laws

set_option maxRecDepth 16384

noncomputable section

open scoped BigOperators

namespace Cert.KernelIdeal.Pay

open Cert.KernelIdeal Cert.KernelIdeal.Gen Cert.KernelIdeal.Fr
open Idealize.ShloMosaic Idealize.ShloMosaic.ValueIdx

/-! ## The index a unit rectangle reads

A load through a rectangle reads the buffer at the rectangle's image of the local index, and a unit-stride rectangle's
image is offset + 1 · coordinate on every axis. -/

/-- Hop `k`'s slab of a stack (offset `(k, 0, 0)`, sizes `[1, 2000, 64]`): local `(u, p, q)` is the stack's `(k, p, q)`. -/
theorem idx_slab (o : Nat) (inb : ∀ a, (![o, 0, 0] : Fin 3 → Nat) a + S1x2000x64.size a ≤ S4x2000x64.size a)
    (k : Fin 4) (hk : k.val = o) (u : Fin 1) (p : Fin 2000) (q : Fin 64) :
    (Rect.unit (s := S4x2000x64) ![o, 0, 0] S1x2000x64.size inb).idx (ix3 u p q) = ix3 k p q :=
  funext fun a => Fin.ext (by
    match a with
    | ⟨0, _⟩ => show o + 1 * u.val = k.val; omega
    | ⟨1, _⟩ => show 0 + 1 * p.val = p.val; omega
    | ⟨2, _⟩ => show 0 + 1 * q.val = q.val; omega)

/-- Hop `k`'s weight matrix (offset `(k, 0, 0)`, sizes `[1, 64, 64]`): local `(u, a, c)` is the stack's `(k, a, c)`. -/
theorem idx_w (o : Nat) (inb : ∀ a, (![o, 0, 0] : Fin 3 → Nat) a + S1x64x64.size a ≤ S4x64x64.size a)
    (k : Fin 4) (hk : k.val = o) (u : Fin 1) (p : Fin 64) (q : Fin 64) :
    (Rect.unit (s := S4x64x64) ![o, 0, 0] S1x64x64.size inb).idx (ix3 u p q) = ix3 k p q :=
  funext fun a => Fin.ext (by
    match a with
    | ⟨0, _⟩ => show o + 1 * u.val = k.val; omega
    | ⟨1, _⟩ => show 0 + 1 * p.val = p.val; omega
    | ⟨2, _⟩ => show 0 + 1 * q.val = q.val; omega)

/-- Hop `k`'s bias row (offset `(k, 0)`, sizes `[1, 64]`): local `(u, a)` is the biases' `(k, a)`. -/
theorem idx_b (o : Nat) (inb : ∀ a, (![o, 0] : Fin 2 → Nat) a + S1x64.size a ≤ S4x64.size a)
    (k : Fin 4) (hk : k.val = o) (u : Fin 1) (q : Fin 64) :
    (Rect.unit (s := S4x64) ![o, 0] S1x64.size inb).idx (ix2 u q) = ix2 k q :=
  funext fun a => Fin.ext (by
    match a with
    | ⟨0, _⟩ => show o + 1 * u.val = k.val; omega
    | ⟨1, _⟩ => show 0 + 1 * q.val = q.val; omega)

theorem idx_rY0 (u : Fin 1) (p : Fin 2000) (q : Fin 64) : rY0.idx (ix3 u p q) = ix3 (0 : Fin 4) p q := idx_slab 0 _ 0 rfl u p q
theorem idx_rY1 (u : Fin 1) (p : Fin 2000) (q : Fin 64) : rY1.idx (ix3 u p q) = ix3 (1 : Fin 4) p q := idx_slab 1 _ 1 rfl u p q
theorem idx_rY2 (u : Fin 1) (p : Fin 2000) (q : Fin 64) : rY2.idx (ix3 u p q) = ix3 (2 : Fin 4) p q := idx_slab 2 _ 2 rfl u p q
theorem idx_rY3 (u : Fin 1) (p : Fin 2000) (q : Fin 64) : rY3.idx (ix3 u p q) = ix3 (3 : Fin 4) p q := idx_slab 3 _ 3 rfl u p q

theorem idx_rW0 (u : Fin 1) (a c : Fin 64) : rW0.idx (ix3 u a c) = ix3 (0 : Fin 4) a c := idx_w 0 _ 0 rfl u a c
theorem idx_rW1 (u : Fin 1) (a c : Fin 64) : rW1.idx (ix3 u a c) = ix3 (1 : Fin 4) a c := idx_w 1 _ 1 rfl u a c
theorem idx_rW2 (u : Fin 1) (a c : Fin 64) : rW2.idx (ix3 u a c) = ix3 (2 : Fin 4) a c := idx_w 2 _ 2 rfl u a c
theorem idx_rW3 (u : Fin 1) (a c : Fin 64) : rW3.idx (ix3 u a c) = ix3 (3 : Fin 4) a c := idx_w 3 _ 3 rfl u a c

theorem idx_rB0 (u : Fin 1) (a : Fin 64) : rB0.idx (ix2 u a) = ix2 (0 : Fin 4) a := idx_b 0 _ 0 rfl u a
theorem idx_rB1 (u : Fin 1) (a : Fin 64) : rB1.idx (ix2 u a) = ix2 (1 : Fin 4) a := idx_b 1 _ 1 rfl u a
theorem idx_rB2 (u : Fin 1) (a : Fin 64) : rB2.idx (ix2 u a) = ix2 (2 : Fin 4) a := idx_b 2 _ 2 rfl u a
theorem idx_rB3 (u : Fin 1) (a : Fin 64) : rB3.idx (ix2 u a) = ix2 (3 : Fin 4) a := idx_b 3 _ 3 rfl u a

/-- The whole feature block (offset zero, the block's own sizes): local `(p, q)` is `(p, q)`. -/
theorem idx_rX (p : Fin 2000) (q : Fin 64) : rX.idx (ix2 p q) = ix2 p q :=
  funext fun a => Fin.ext (by
    match a with
    | ⟨0, _⟩ => show 0 + 1 * p.val = p.val; omega
    | ⟨1, _⟩ => show 0 + 1 * q.val = q.val; omega)
/-- A whole zero-order weight matrix. -/
theorem idx_rM (a c : Fin 64) : rM.idx (ix2 a c) = ix2 a c :=
  funext fun e => Fin.ext (by
    match e with
    | ⟨0, _⟩ => show 0 + 1 * a.val = a.val; omega
    | ⟨1, _⟩ => show 0 + 1 * c.val = c.val; omega)
/-- A whole zero-order bias. -/
theorem idx_rV (a : Fin 64) : rV.idx (ix1 a) = ix1 a :=
  funext fun e => Fin.ext (by
    match e with
    | ⟨0, _⟩ => show 0 + 1 * a.val = a.val; omega)

/-! ## One dense layer on the matrix unit

Rows `Y` against the TRANSPOSED weight matrix, into the zero accumulator, plus the bias broadcast over the rows: entry
`(p, d)` is `∑ q, Y (p, q) · W (d, q) + b d`. -/

/-- The layer as the body spells it: the product with `Wᵀ` into zero, plus the bias as a row `[1, 64]` broadcast to `[2000, 64]`. -/
def core (Y : FVec Ideal S2000x64 .bf16) (W : FVec Ideal S64x64 .bf16) (b : FVec Ideal S64 .f32) : FVec Ideal S2000x64 .f32 :=
  addf (matmul dot_S2000x64_S64x64_S2000x64_1_0_0_1_n_n none Y (transpose S64x64 [1, 0] W transposes_S64x64_p1_0_S64x64)
      (constant S2000x64 .f32 0x00000000#32))
    (broadcastTo S2000x64 (shapeCast S1x64 b shapeCasts_S64_S1x64) broadcasts_S1x64_S2000x64)

/-- The layer at entry `(p, d)`: the contraction over the one shared axis, the transpose read at `(q, d)` as `W (d, q)`, the bias row read at `d`. -/
theorem core_apply (Y : FVec Ideal S2000x64 .bf16) (W : FVec Ideal S64x64 .bf16) (b : FVec Ideal S64 .f32) (p : Fin 2000) (d : Fin 64) :
    core Y W b (ix2 p d) = Cert.Faber.lin (fun p q => Y (ix2 p q)) (fun a c => W (ix2 a c)) (fun a => b (ix1 a)) p d := by
  unfold core Cert.Faber.lin
  rw [addf_apply]
  refine congrArg₂ (· + ·) ?_ ?_
  · refine (Cert.LibDense.matmul_zero_apply dot_S2000x64_S64x64_S2000x64_1_0_0_1_n_n rfl rfl (fun _ _ => rfl) (fun _ _ => rfl)
      (fun _ _ => rfl) (fun _ _ => rfl) none Y _ p d).trans ?_
    refine Finset.sum_congr rfl fun q _ => ?_
    rw [transpose_ix2_apply]
  · rw [broadcastTo_1b_ab_apply, shapeCast_a_1a_apply]

/-! ## The body's pure pieces, read at an entry

A narrowing of the format is the identity on extended reals; a leading unit axis dropped by a reshape reads the operand at
coordinate 0 of that axis; a scalar splat reads the scalar; sums and products are entrywise. -/

theorem pay2_apply (v0 : Vec Ideal S2000x64 .f32) (i : S2000x64.Idx) : k0_pay2 (F := Ideal) v0 i = v0 i := rfl

theorem pay5_apply (v : Vec Ideal S1x2000x64 .f32) (p : Fin 2000) (q : Fin 64) :
    k0_pay5 (F := Ideal) v (ix2 p q) = v (ix3 (0 : Fin 1) p q) :=
  shapeCast_1ab_ab_apply v shapeCasts_S1x2000x64_S2000x64 p q
theorem pay8_apply (v : Vec Ideal S1x2000x64 .f32) (p : Fin 2000) (q : Fin 64) :
    k0_pay8 (F := Ideal) v (ix2 p q) = v (ix3 (0 : Fin 1) p q) :=
  shapeCast_1ab_ab_apply v shapeCasts_S1x2000x64_S2000x64 p q
theorem pay9_apply (v : Vec Ideal S1x2000x64 .f32) (p : Fin 2000) (q : Fin 64) :
    k0_pay9 (F := Ideal) v (ix2 p q) = v (ix3 (0 : Fin 1) p q) :=
  shapeCast_1ab_ab_apply v shapeCasts_S1x2000x64_S2000x64 p q
theorem pay12_apply (v : Vec Ideal S1x2000x64 .f32) (p : Fin 2000) (q : Fin 64) :
    k0_pay12 (F := Ideal) v (ix2 p q) = v (ix3 (0 : Fin 1) p q) :=
  shapeCast_1ab_ab_apply v shapeCasts_S1x2000x64_S2000x64 p q
theorem pay13_apply (v : Vec Ideal S1x2000x64 .f32) (p : Fin 2000) (q : Fin 64) :
    k0_pay13 (F := Ideal) v (ix2 p q) = v (ix3 (0 : Fin 1) p q) :=
  shapeCast_1ab_ab_apply v shapeCasts_S1x2000x64_S2000x64 p q
theorem pay14_apply (v : Vec Ideal S1x64x64 .f32) (a c : Fin 64) :
    k0_pay14 (F := Ideal) v (ix2 a c) = v (ix3 (0 : Fin 1) a c) :=
  shapeCast_1ab_ab_apply v shapeCasts_S1x64x64_S64x64 a c

/-- The first hop of the sd branch: the zero splat plus the layer. -/
theorem pay3_apply (v4 : Vec Ideal S1x2000x64 .f32) (v10 : Vec Ideal S1x64x64 .f32) (v16 : Vec Ideal S1x64 .f32) (p : Fin 2000) (d : Fin 64) :
    k0_pay3 (F := Ideal) v4 v10 v16 (ix2 p d)
      = 0 + Cert.Faber.lin (fun p q => v4 (ix3 (0 : Fin 1) p q)) (fun a c => v10 (ix3 (0 : Fin 1) a c)) (fun a => v16 (ix2 (0 : Fin 1) a)) p d := by
  show Ideal.ofBits .f32 0x00000000#32 + core (truncf .bf16 (shapeCast S2000x64 v4 shapeCasts_S1x2000x64_S2000x64) bitsLt_bf16_f32)
      (truncf .bf16 (shapeCast S64x64 v10 shapeCasts_S1x64x64_S64x64) bitsLt_bf16_f32) (shapeCast S64 v16 shapeCasts_S1x64_S64) (ix2 p d) = _
  rw [Ideal.ofBits_zero_f32, core_apply]
  simp only [truncf_apply, shapeCast_1ab_ab_apply, shapeCast_1a_a_apply]

/-- The first hop of the ds branch. -/
theorem pay4_apply (v7 : Vec Ideal S1x2000x64 .f32) (v13 : Vec Ideal S1x64x64 .f32) (v18 : Vec Ideal S1x64 .f32) (p : Fin 2000) (d : Fin 64) :
    k0_pay4 (F := Ideal) v7 v13 v18 (ix2 p d)
      = 0 + Cert.Faber.lin (fun p q => v7 (ix3 (0 : Fin 1) p q)) (fun a c => v13 (ix3 (0 : Fin 1) a c)) (fun a => v18 (ix2 (0 : Fin 1) a)) p d := by
  show Ideal.ofBits .f32 0x00000000#32 + core (truncf .bf16 (shapeCast S2000x64 v7 shapeCasts_S1x2000x64_S2000x64) bitsLt_bf16_f32)
      (truncf .bf16 (shapeCast S64x64 v13 shapeCasts_S1x64x64_S64x64) bitsLt_bf16_f32) (shapeCast S64 v18 shapeCasts_S1x64_S64) (ix2 p d) = _
  rw [Ideal.ofBits_zero_f32, core_apply]
  simp only [truncf_apply, shapeCast_1ab_ab_apply, shapeCast_1a_a_apply]

/-- The second hop of the sd branch: the running sum plus the layer times ½. -/
theorem pay6_apply (v30 v33 : FVec Ideal S2000x64 .f32) (v38 : Vec Ideal S1x64x64 .f32) (v44 : Vec Ideal S1x64 .f32) (p : Fin 2000) (d : Fin 64) :
    k0_pay6 (F := Ideal) v30 v33 v38 v44 (ix2 p d)
      = v30 (ix2 p d) + Cert.Faber.lin (fun p q => v33 (ix2 p q)) (fun a c => v38 (ix3 (0 : Fin 1) a c)) (fun a => v44 (ix2 (0 : Fin 1) a)) p d
          * Ideal.ofBits .f32 0x3F000000#32 := by
  show v30 (ix2 p d) + core (truncf .bf16 v33 bitsLt_bf16_f32)
      (truncf .bf16 (shapeCast S64x64 v38 shapeCasts_S1x64x64_S64x64) bitsLt_bf16_f32) (shapeCast S64 v44 shapeCasts_S1x64_S64) (ix2 p d)
        * Ideal.ofBits .f32 0x3F000000#32 = _
  rw [core_apply]
  simp only [truncf_apply, shapeCast_1ab_ab_apply, shapeCast_1a_a_apply]

/-- The second hop of the ds branch. -/
theorem pay7_apply (v31 : FVec Ideal S2000x64 .f32) (v35 : Vec Ideal S1x2000x64 .f32) (v41 : Vec Ideal S1x64x64 .f32) (v46 : Vec Ideal S1x64 .f32)
    (p : Fin 2000) (d : Fin 64) :
    k0_pay7 (F := Ideal) v31 v35 v41 v46 (ix2 p d)
      = v31 (ix2 p d) + Cert.Faber.lin (fun p q => v35 (ix3 (0 : Fin 1) p q)) (fun a c => v41 (ix3 (0 : Fin 1) a c)) (fun a => v46 (ix2 (0 : Fin 1) a)) p d
          * Ideal.ofBits .f32 0x3F000000#32 := by
  show v31 (ix2 p d) + core (truncf .bf16 (shapeCast S2000x64 v35 shapeCasts_S1x2000x64_S2000x64) bitsLt_bf16_f32)
      (truncf .bf16 (shapeCast S64x64 v41 shapeCasts_S1x64x64_S64x64) bitsLt_bf16_f32) (shapeCast S64 v46 shapeCasts_S1x64_S64) (ix2 p d)
        * Ideal.ofBits .f32 0x3F000000#32 = _
  rw [core_apply]
  simp only [truncf_apply, shapeCast_1ab_ab_apply, shapeCast_1a_a_apply]

/-- The third hop of the sd branch: the running sum plus the layer times ¼. -/
theorem pay10_apply (v60 : FVec Ideal S2000x64 .f32) (v66 : FVec Ideal S2000x64 .bf16) (v70 : Vec Ideal S1x64x64 .f32) (v76 : Vec Ideal S1x64 .f32)
    (p : Fin 2000) (d : Fin 64) :
    k0_pay10 (F := Ideal) v60 v66 v70 v76 (ix2 p d)
      = v60 (ix2 p d) + Cert.Faber.lin (fun p q => v66 (ix2 p q)) (fun a c => v70 (ix3 (0 : Fin 1) a c)) (fun a => v76 (ix2 (0 : Fin 1) a)) p d
          * Ideal.ofBits .f32 0x3E800000#32 := by
  show v60 (ix2 p d) + core v66
      (truncf .bf16 (shapeCast S64x64 v70 shapeCasts_S1x64x64_S64x64) bitsLt_bf16_f32) (shapeCast S64 v76 shapeCasts_S1x64_S64) (ix2 p d)
        * Ideal.ofBits .f32 0x3E800000#32 = _
  rw [core_apply]
  simp only [truncf_apply, shapeCast_1ab_ab_apply, shapeCast_1a_a_apply]

/-- The third hop of the ds branch. -/
theorem pay11_apply (v63 : FVec Ideal S2000x64 .f32) (v69 : FVec Ideal S2000x64 .bf16) (v73 : Vec Ideal S1x64x64 .f32) (v78 : Vec Ideal S1x64 .f32)
    (p : Fin 2000) (d : Fin 64) :
    k0_pay11 (F := Ideal) v63 v69 v73 v78 (ix2 p d)
      = v63 (ix2 p d) + Cert.Faber.lin (fun p q => v69 (ix2 p q)) (fun a c => v73 (ix3 (0 : Fin 1) a c)) (fun a => v78 (ix2 (0 : Fin 1) a)) p d
          * Ideal.ofBits .f32 0x3E800000#32 := by
  show v63 (ix2 p d) + core v69
      (truncf .bf16 (shapeCast S64x64 v73 shapeCasts_S1x64x64_S64x64) bitsLt_bf16_f32) (shapeCast S64 v78 shapeCasts_S1x64_S64) (ix2 p d)
        * Ideal.ofBits .f32 0x3E800000#32 = _
  rw [core_apply]
  simp only [truncf_apply, shapeCast_1ab_ab_apply, shapeCast_1a_a_apply]

/-- The ds branch: the running sum plus the fourth layer times ⅛, plus the zero-order layer of the features. -/
theorem pay15_apply (v1 : FVec Ideal S2000x64 .bf16) (v95 : FVec Ideal S2000x64 .f32) (v101 : FVec Ideal S2000x64 .bf16)
    (v105 : Vec Ideal S1x64x64 .f32) (v110 : Vec Ideal S1x64 .f32) (v130 : Vec Ideal S64x64 .f32) (v133 : Vec Ideal S64 .f32)
    (p : Fin 2000) (d : Fin 64) :
    k0_pay15 (F := Ideal) v1 v95 v101 v105 v110 v130 v133 (ix2 p d)
      = (v95 (ix2 p d) + Cert.Faber.lin (fun p q => v101 (ix2 p q)) (fun a c => v105 (ix3 (0 : Fin 1) a c)) (fun a => v110 (ix2 (0 : Fin 1) a)) p d
            * Ideal.ofBits .f32 0x3E000000#32)
          + Cert.Faber.lin (fun p q => v1 (ix2 p q)) (fun a c => v130 (ix2 a c)) (fun a => v133 (ix1 a)) p d := by
  show (v95 (ix2 p d) + core v101
      (truncf .bf16 (shapeCast S64x64 v105 shapeCasts_S1x64x64_S64x64) bitsLt_bf16_f32) (shapeCast S64 v110 shapeCasts_S1x64_S64) (ix2 p d)
        * Ideal.ofBits .f32 0x3E000000#32)
      + core v1 (truncf .bf16 v130 bitsLt_bf16_f32) v133 (ix2 p d) = _
  rw [core_apply, core_apply]
  simp only [truncf_apply, shapeCast_1ab_ab_apply, shapeCast_1a_a_apply]

/-- Half the sd branch: ½ times (the running sum plus the fourth layer times ⅛, plus the zero-order layer). -/
theorem pay16_apply (v1 : FVec Ideal S2000x64 .bf16) (v92 : FVec Ideal S2000x64 .f32) (v98 : FVec Ideal S2000x64 .bf16)
    (v104 : FVec Ideal S64x64 .bf16) (v108 : Vec Ideal S1x64 .f32) (v128 : Vec Ideal S64x64 .f32) (v132 : Vec Ideal S64 .f32)
    (p : Fin 2000) (d : Fin 64) :
    k0_pay16 (F := Ideal) v1 v92 v98 v104 v108 v128 v132 (ix2 p d)
      = Ideal.ofBits .f32 0x3F000000#32
          * ((v92 (ix2 p d) + Cert.Faber.lin (fun p q => v98 (ix2 p q)) (fun a c => v104 (ix2 a c)) (fun a => v108 (ix2 (0 : Fin 1) a)) p d
                * Ideal.ofBits .f32 0x3E000000#32)
              + Cert.Faber.lin (fun p q => v1 (ix2 p q)) (fun a c => v128 (ix2 a c)) (fun a => v132 (ix1 a)) p d) := by
  show Ideal.ofBits .f32 0x3F000000#32
      * ((v92 (ix2 p d) + core v98 v104 (shapeCast S64 v108 shapeCasts_S1x64_S64) (ix2 p d) * Ideal.ofBits .f32 0x3E000000#32)
          + core v1 (truncf .bf16 v128 bitsLt_bf16_f32) v132 (ix2 p d)) = _
  rw [core_apply, core_apply]
  simp only [truncf_apply, shapeCast_1a_a_apply]

/-- The stored block: half the sd branch plus ½ times the ds branch. -/
theorem pay1_apply (v145 v147 : FVec Ideal S2000x64 .f32) (i : S2000x64.Idx) :
    k0_pay1 (F := Ideal) v145 v147 i = v147 i + Ideal.ofBits .f32 0x3F000000#32 * v145 i := rfl

/-! ## The block the body stores, at an entry -/

theorem blockOut_apply (x0 : Vec Ideal S2000x64 .f32) (x1 x2 : Vec Ideal S4x2000x64 .f32) (x3 : Vec Ideal S4x64x64 .f32) (x4 : Vec Ideal S4x64 .f32)
    (x5 : Vec Ideal S4x64x64 .f32) (x6 : Vec Ideal S4x64 .f32) (x7 : Vec Ideal S64x64 .f32) (x8 : Vec Ideal S64 .f32)
    (x9 : Vec Ideal S64x64 .f32) (x10 : Vec Ideal S64 .f32) (p : Fin 2000) (d : Fin 64) :
    blockOut (F := Ideal) x0 x1 x2 x3 x4 x5 x6 x7 x8 x9 x10 (ix2 p d)
      = Cert.Faber.outAcc (fun (p : Fin 2000) (q : Fin 64) => x0 (ix2 p q))
          (fun (k : Fin 4) (p : Fin 2000) (q : Fin 64) => x1 (ix3 k p q)) (fun (k : Fin 4) (p : Fin 2000) (q : Fin 64) => x2 (ix3 k p q))
          (fun (k : Fin 4) (a b : Fin 64) => x3 (ix3 k a b)) (fun (k : Fin 4) (a : Fin 64) => x4 (ix2 k a))
          (fun (k : Fin 4) (a b : Fin 64) => x5 (ix3 k a b)) (fun (k : Fin 4) (a : Fin 64) => x6 (ix2 k a))
          (fun (a b : Fin 64) => x7 (ix2 a b)) (fun (a : Fin 64) => x8 (ix1 a))
          (fun (a b : Fin 64) => x9 (ix2 a b)) (fun (a : Fin 64) => x10 (ix1 a)) p d := by
  unfold blockOut
  rw [pay1_apply, pay16_apply, pay15_apply, pay10_apply, pay11_apply, pay6_apply, pay7_apply, pay3_apply, pay4_apply]
  simp only [pay2_apply, pay5_apply, pay8_apply, pay9_apply, pay12_apply, pay13_apply, pay14_apply,
    View.ld, idx_rX, idx_rM, idx_rV, idx_rY0, idx_rY1, idx_rY2, idx_rY3, idx_rW0, idx_rW1, idx_rW2, idx_rW3, idx_rB0, idx_rB1, idx_rB2, idx_rB3]
  rfl

end Cert.KernelIdeal.Pay

end
-- ==== Proof.KIValue.lean ====
/-
  The idealized kernel's result array, as one function of what the region finds.

  At point `t` the body stores `blockOut` of the eleven input blocks; read at entry (p, d) that is the accumulated
  arrangement of the dense combination over the block's rows (the block lemma).  Row p of a block is row
  2000·t + p of its array, and the weight and bias blocks are their whole arrays, so what point `t` writes back is
  block `t` of the function `G` below — the same arrangement over the arrays' rows.  The fifty blocks cover the
  output array, hence the array ends at `G`.
-/
import proofs.«124106_j28664611733983_2_alg».proof.Proof.KIBlocks
import proofs.«124106_j28664611733983_2_alg».proof.Proof.KIPay
import proofs.«124106_j28664611733983_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output at row n, column d: the accumulated arrangement over row n of the features and of the two propagated
    stacks as the region finds them, with the weights and biases as the region finds them. -/
def Gnd (c : Dev nD) (n : Fin 100000) (d : Fin 64) : EReal :=
  Cert.Faber.outAcc
      (fun (n : Fin 100000) (q : Fin 64) => (V m c main_arg0 : S100000x64.Idx → EReal) (ix2 n q))
      (fun (k : Fin 4) (n : Fin 100000) (q : Fin 64) => (V m c main_v176 : S4x100000x64.Idx → EReal) (ix3 k n q))
      (fun (k : Fin 4) (n : Fin 100000) (q : Fin 64) => (V m c main_v181 : S4x100000x64.Idx → EReal) (ix3 k n q))
      (fun (k : Fin 4) (a b : Fin 64) => (V m c main_arg2 : S4x64x64.Idx → EReal) (ix3 k a b))
      (fun (k : Fin 4) (a : Fin 64) => (V m c main_arg3 : S4x64.Idx → EReal) (ix2 k a))
      (fun (k : Fin 4) (a b : Fin 64) => (V m c main_arg4 : S4x64x64.Idx → EReal) (ix3 k a b))
      (fun (k : Fin 4) (a : Fin 64) => (V m c main_arg5 : S4x64.Idx → EReal) (ix2 k a))
      (fun (a b : Fin 64) => (V m c main_arg6 : S64x64.Idx → EReal) (ix2 a b))
      (fun (a : Fin 64) => (V m c main_arg7 : S64.Idx → EReal) (ix1 a))
      (fun (a b : Fin 64) => (V m c main_arg8 : S64x64.Idx → EReal) (ix2 a b))
      (fun (a : Fin 64) => (V m c main_arg9 : S64.Idx → EReal) (ix1 a)) n d

theorem Gnd_eq (c : Dev nD) (n : Fin 100000) (d : Fin 64) :
    Gnd m c n d = Cert.Faber.outAcc
      (fun (n : Fin 100000) (q : Fin 64) => (V m c main_arg0 : S100000x64.Idx → EReal) (ix2 n q))
      (fun (k : Fin 4) (n : Fin 100000) (q : Fin 64) => (V m c main_v176 : S4x100000x64.Idx → EReal) (ix3 k n q))
      (fun (k : Fin 4) (n : Fin 100000) (q : Fin 64) => (V m c main_v181 : S4x100000x64.Idx → EReal) (ix3 k n q))
      (fun (k : Fin 4) (a b : Fin 64) => (V m c main_arg2 : S4x64x64.Idx → EReal) (ix3 k a b))
      (fun (k : Fin 4) (a : Fin 64) => (V m c main_arg3 : S4x64.Idx → EReal) (ix2 k a))
      (fun (k : Fin 4) (a b : Fin 64) => (V m c main_arg4 : S4x64x64.Idx → EReal) (ix3 k a b))
      (fun (k : Fin 4) (a : Fin 64) => (V m c main_arg5 : S4x64.Idx → EReal) (ix2 k a))
      (fun (a b : Fin 64) => (V m c main_arg6 : S64x64.Idx → EReal) (ix2 a b))
      (fun (a : Fin 64) => (V m c main_arg7 : S64.Idx → EReal) (ix1 a))
      (fun (a b : Fin 64) => (V m c main_arg8 : S64x64.Idx → EReal) (ix2 a b))
      (fun (a : Fin 64) => (V m c main_arg9 : S64.Idx → EReal) (ix1 a)) n d := by
  unfold Gnd; rfl

attribute [irreducible] Gnd

/-- The output array. -/
def G (c : Dev nD) : S100000x64.Idx → EReal := fun i => Gnd m c (i 0) (i 1)

theorem G_apply (c : Dev nD) (n : Fin 100000) (d : Fin 64) : G m c (ix2 n d) = Gnd m c n d := rfl

/-- What point `t` writes back is block `t` of `G`: entry (p, d) of the stored block is the accumulated arrangement over the
    block's row p (the block lemma), that row is row 2000·t + p of the arrays, and the weight blocks are the whole arrays. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  unfold out0_11
  rw [View.canon_unit_zero hz11]
  generalize hB : blockOut (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) = B
  generalize hG : G m c = Gf
  funext j
  rw [View.read_apply, cast_eq]
  show B ((cfg0.win 11).xinj (grid0.coords t) j) = Gf (((cfg0.win 11).blk t).view.emb j)
  obtain ⟨p, d, rfl⟩ : ∃ (p : Fin 2000) (d : Fin 64), j = ix2 p d := ⟨j 0, j 1, eq_ix2 j⟩
  have hN : cfg0.N = 50 := N_0
  have ht : t.val < 50 := by have := t.isLt; omega
  have hp : p.val < 2000 := p.isLt
  obtain ⟨n, hn⟩ : ∃ n : Fin 100000, n.val = t.val * 2000 + p.val := ⟨⟨t.val * 2000 + p.val, by omega⟩, rfl⟩
  have hx : (cfg0.win 11).xinj (grid0.coords t) (ix2 p d) = (ix2 p d : S2000x64.Idx) := rfl
  rw [hx, emb11 t p d n hn, ← hB, ← hG, G_apply, Gnd_eq]
  refine (Cert.KernelIdeal.Pay.blockOut_apply (iblk m c 0 t) (iblk m c 1 t) (iblk m c 2 t) (iblk m c 3 t) (iblk m c 4 t)
    (iblk m c 5 t) (iblk m c 6 t) (iblk m c 7 t) (iblk m c 8 t) (iblk m c 9 t) (iblk m c 10 t) p d).trans ?_
  have w3 : (fun (k : Fin 4) (a b : Fin 64) => iblk m c 3 t (ix3 k a b)) = fun (k : Fin 4) (a b : Fin 64) => (V m c main_arg2 : S4x64x64.Idx → EReal) (ix3 k a b) :=
    funext fun k => funext fun a => funext fun b => blk3 m c t k a b
  have w4 : (fun (k : Fin 4) (a : Fin 64) => iblk m c 4 t (ix2 k a)) = fun (k : Fin 4) (a : Fin 64) => (V m c main_arg3 : S4x64.Idx → EReal) (ix2 k a) :=
    funext fun k => funext fun a => blk4 m c t k a
  have w5 : (fun (k : Fin 4) (a b : Fin 64) => iblk m c 5 t (ix3 k a b)) = fun (k : Fin 4) (a b : Fin 64) => (V m c main_arg4 : S4x64x64.Idx → EReal) (ix3 k a b) :=
    funext fun k => funext fun a => funext fun b => blk5 m c t k a b
  have w6 : (fun (k : Fin 4) (a : Fin 64) => iblk m c 6 t (ix2 k a)) = fun (k : Fin 4) (a : Fin 64) => (V m c main_arg5 : S4x64.Idx → EReal) (ix2 k a) :=
    funext fun k => funext fun a => blk6 m c t k a
  have w7 : (fun (a b : Fin 64) => iblk m c 7 t (ix2 a b)) = fun (a b : Fin 64) => (V m c main_arg6 : S64x64.Idx → EReal) (ix2 a b) :=
    funext fun a => funext fun b => blk7 m c t a b
  have w8 : (fun (a : Fin 64) => iblk m c 8 t (ix1 a)) = fun (a : Fin 64) => (V m c main_arg7 : S64.Idx → EReal) (ix1 a) :=
    funext fun a => blk8 m c t a
  have w9 : (fun (a b : Fin 64) => iblk m c 9 t (ix2 a b)) = fun (a b : Fin 64) => (V m c main_arg8 : S64x64.Idx → EReal) (ix2 a b) :=
    funext fun a => funext fun b => blk9 m c t a b
  have w10 : (fun (a : Fin 64) => iblk m c 10 t (ix1 a)) = fun (a : Fin 64) => (V m c main_arg9 : S64.Idx → EReal) (ix1 a) :=
    funext fun a => blk10 m c t a
  rw [w3, w4, w5, w6, w7, w8, w9, w10]
  exact Cert.Faber.outAcc_congr _ _ _ _ _ _ _ _ _ _ _ _ _ _ p n d
    (fun q => blk0 m c t p q n hn) (fun k q => blk1 m c t k p q n hn) (fun k q => blk2 m c t k p q n hn)

/-- The output array after the run is `G`: the fifty row blocks cover it. -/
theorem final11 (c : Dev nD) : (dats m 0 c).arrAt 11 cfg0.N = G m c :=
  (dats m 0 c).arrAt_eq_of_cover 11 (G m c) (fun t _ => flushed_eq m c t) cover11

/-- The idealized kernel's run: every weakly fair execution terminates with the result array at `G` and the ten
    argument arrays as launched. -/
theorem run : θ_run defs (onTc (τ := τ) (main (F := Ideal))) ⟨m, fun _ => 0, ρ⟩ fun r => ∀ c : Dev nD,
      r.2.mem ((c.tc : Thread nD τ).loc main_v182) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 11).trans (final11 m c), kept_args m (dats m) (A_eq m) r h c⟩) (run_main m ρ)

end Cert.KernelIdeal.Val

end
-- ==== Proof.RefStages.lean ====
/-
  The propagated features, as the reference computes them: hop k of the forward stack and of the transposed stack,
  each a function of the feature array and the edge list alone, read at row n and column q.
-/
import proofs.«124106_j28664611733983_2_alg».proof.Proof.RefRead
import Idealize.ShloMosaic.Lib.ValueIdx

noncomputable section

namespace Cert.ReferenceIdeal.Stages

open Cert.ReferenceIdeal Cert.ReferenceIdeal.ReadP Idealize.ShloMosaic Idealize.ShloMosaic.ValueIdx

/-- Hop `k` of the forward propagation (k = 0 … 3): the four sparse products applied in turn to the features. -/
def Y (x0 : (⟨S100000x64, .f32⟩ : BufTy).Contents (Elt Ideal)) (x1 : (⟨S2x1600000, .i32⟩ : BufTy).Contents (Elt Ideal))
    (k : Fin 4) (n : Fin 100000) (q : Fin 64) : EReal :=
  (![val_main_v80 (F := Ideal) x0 x1, val_main_v136 (F := Ideal) x0 x1, val_main_v186 (F := Ideal) x0 x1,
     val_main_v236 (F := Ideal) x0 x1] k) (ix2 n q)

/-- Hop `k` of the transposed propagation: the transposed sparse product applied to the forward hop before it. -/
def T (x0 : (⟨S100000x64, .f32⟩ : BufTy).Contents (Elt Ideal)) (x1 : (⟨S2x1600000, .i32⟩ : BufTy).Contents (Elt Ideal))
    (k : Fin 4) (n : Fin 100000) (q : Fin 64) : EReal :=
  (![val_main_v93 (F := Ideal) x0 x1, val_main_v149 (F := Ideal) x0 x1, val_main_v199 (F := Ideal) x0 x1,
     val_main_v249 (F := Ideal) x0 x1] k) (ix2 n q)

end Cert.ReferenceIdeal.Stages

end
-- ==== Proof.KIHost.lean ====
/-
  What the kernel's region finds in its two stacks of propagated features: the values the reference computes.

  Both programs compute, by the same sequence of host operations, the edge weights (out- and in-degrees as scatter-adds
  of ones over the edge list's two rows, the power −1/2 where the degree is positive and zero elsewhere, gathered along
  the edges and multiplied), and from them hop after hop the sparse products: a gather of the previous hop's rows along
  one row of the edge list, the product with the edge weights, a scatter-add into zeros along the other row.  The
  kernel's program then gives each of the four forward hops (and each of the four transposed hops) a leading unit axis
  and concatenates them along it.  So entry (k, n, q) of a stack is entry (n, q) of hop k, and hop k's composed term is
  the reference's stage for that hop: the two agree operation for operation, which is checked here by unfolding both
  (for every float instance, so that no arithmetic is opened), then read at an index at the ideal instance.
-/
import proofs.«124106_j28664611733983_2_alg».proof.Proof.KIBase
import proofs.«124106_j28664611733983_2_alg».proof.Proof.RefStages
import Idealize.ShloMosaic.Lib.StableHlo.Run
import Idealize.ShloMosaic.Lib.ValueIdx
import Idealize.ShloMosaic.Lib.Pipeline.Value

set_option maxRecDepth 16384

noncomputable section

namespace Cert.KernelIdeal.Host

open Cert.KernelIdeal Cert.KernelIdeal.Gen Cert.KernelIdeal.Fr
open Idealize.ShloMosaic Idealize.ShloMosaic.TcCoe Idealize.SL.Sem Idealize.ShloMosaic.ValueIdx
open Idealize.ShloMosaic.StableHlo

set_option maxHeartbeats 400000

/-- Piece `k` of a concatenation along the leading axis of pieces with a leading unit axis, read at `(k, n, q)`: the piece at
    `(0, n, q)` (the pieces before it span `k` leading coordinates). -/
private theorem piece_apply {α : Type} (xs : List ((s : Shape) × (s.Idx → α)))
    (h : Shape.Concatenates (xs.map (·.1)) S4x100000x64 0) (k : Fin 4) (hk : k.val < xs.length)
    (x : S1x100000x64.Idx → α) (hx : xs[k.val] = ⟨S1x100000x64, x⟩)
    (hpre : (((xs.take k.val).map (·.1)).map fun s =>
      if h : s.rank = S4x100000x64.rank then s.size ((0 : Fin S4x100000x64.rank).cast h.symm) else 0).sum = k.val)
    (n : Fin 100000) (q : Fin 64) :
    concatenate S4x100000x64 0 xs h (ix3 k n q) = x (ix3 (0 : Fin 1) n q) :=
  concatenate_apply_piece (0 : Fin S4x100000x64.rank) xs h (ix3 k n q) k.val hk S1x100000x64 x hx rfl k.val hpre
    (ix3 (0 : Fin 1) n q)
    (fun b hb => match b, hb with
      | ⟨0, _⟩, hb => absurd rfl hb
      | ⟨1, _⟩, _ => rfl
      | ⟨2, _⟩, _ => rfl)
    (Nat.add_zero _)

/-- Entry (k, n, q) of four [100000, 64] arrays, each given a leading unit axis and laid end to end along it, is entry
    (n, q) of the k-th array: the concatenation picks piece k at leading coordinate 0, and the added unit axis is dropped. -/
theorem stack4_apply {α : Type} (a0 a1 a2 a3 : S100000x64.Idx → α) (k : Fin 4) (n : Fin 100000) (q : Fin 64) :
    concatenate S4x100000x64 0
      [⟨S1x100000x64, broadcastInDim S1x100000x64 ![1, 2] bcast_S100000x64_S1x100000x64_1_2 a0⟩,
       ⟨S1x100000x64, broadcastInDim S1x100000x64 ![1, 2] bcast_S100000x64_S1x100000x64_1_2 a1⟩,
       ⟨S1x100000x64, broadcastInDim S1x100000x64 ![1, 2] bcast_S100000x64_S1x100000x64_1_2 a2⟩,
       ⟨S1x100000x64, broadcastInDim S1x100000x64 ![1, 2] bcast_S100000x64_S1x100000x64_1_2 a3⟩]
      concatenates_S1x100000x64_S1x100000x64_S1x100000x64_S1x100000x64_S4x100000x64_d0 (ix3 k n q)
    = (![a0, a1, a2, a3] k) (ix2 n q) := by
  have hb : ∀ a : S100000x64.Idx → α,
      broadcastInDim S1x100000x64 ![1, 2] bcast_S100000x64_S1x100000x64_1_2 a (ix3 (0 : Fin 1) n q) = a (ix2 n q) := fun a =>
    broadcastInDim_apply _ _ a _ (ix2 n q) (fun b => match b with
      | ⟨0, _⟩ => (if_neg (show ¬ (100000 : ℕ) = 1 by decide)).symm
      | ⟨1, _⟩ => (if_neg (show ¬ (64 : ℕ) = 1 by decide)).symm)
  match k with
  | ⟨0, hk⟩ =>
    refine Eq.trans (piece_apply _ _ ⟨0, hk⟩ ?_ _ ?_ ?_ n q) (hb a0)
    · exact hk
    · rfl
    · rfl
  | ⟨1, hk⟩ =>
    refine Eq.trans (piece_apply _ _ ⟨1, hk⟩ ?_ _ ?_ ?_ n q) (hb a1)
    · exact hk
    · rfl
    · rfl
  | ⟨2, hk⟩ =>
    refine Eq.trans (piece_apply _ _ ⟨2, hk⟩ ?_ _ ?_ ?_ n q) (hb a2)
    · exact hk
    · rfl
    · rfl
  | ⟨3, hk⟩ =>
    refine Eq.trans (piece_apply _ _ ⟨3, hk⟩ ?_ _ ?_ ?_ n q) (hb a3)
    · exact hk
    · rfl
    · rfl

/-- A concatenation of four pieces with a leading unit axis depends on the pieces only. -/
theorem concat4_congr {α : Type} {A0 A1 A2 A3 B0 B1 B2 B3 : S1x100000x64.Idx → α}
    (h0 : A0 = B0) (h1 : A1 = B1) (h2 : A2 = B2) (h3 : A3 = B3) :
    concatenate S4x100000x64 0 [⟨S1x100000x64, A0⟩, ⟨S1x100000x64, A1⟩, ⟨S1x100000x64, A2⟩, ⟨S1x100000x64, A3⟩]
        concatenates_S1x100000x64_S1x100000x64_S1x100000x64_S1x100000x64_S4x100000x64_d0
      = concatenate S4x100000x64 0 [⟨S1x100000x64, B0⟩, ⟨S1x100000x64, B1⟩, ⟨S1x100000x64, B2⟩, ⟨S1x100000x64, B3⟩]
        concatenates_S1x100000x64_S1x100000x64_S1x100000x64_S1x100000x64_S4x100000x64_d0 := by
  subst h0 h1 h2 h3; rfl

set_option maxHeartbeats 1000000000 in
/-- The forward stack as the host operations compose it: the four forward hops, each given a leading unit axis, laid end to end; hop k's term is, operation for operation, the reference's stage for that hop (two scatter-adds of ones for the degrees, the power −1/2 where positive, two gathers and a product for the edge weights, then per hop a gather of the previous hop's rows, the product with the weights and a scatter-add into zeros). -/
theorem ystack_term {F : FTy → Type} [FloatOps F] (m : (ℓ : Loc nD τ sig) → Buf (Elt F) ℓ) (c : Dev nD) :
    (V (F := F) m c main_v176 : (⟨S4x100000x64, .f32⟩ : BufTy).Contents (Elt F))
      = concatenate S4x100000x64 0
      [⟨S1x100000x64, broadcastInDim S1x100000x64 ![1, 2] bcast_S100000x64_S1x100000x64_1_2
          (Cert.ReferenceIdeal.ReadP.val_main_v80 (F := F) (m ((c.tc : Thread nD τ).loc main_arg0)) (m ((c.tc : Thread nD τ).loc main_arg1)))⟩,
       ⟨S1x100000x64, broadcastInDim S1x100000x64 ![1, 2] bcast_S100000x64_S1x100000x64_1_2
          (Cert.ReferenceIdeal.ReadP.val_main_v136 (F := F) (m ((c.tc : Thread nD τ).loc main_arg0)) (m ((c.tc : Thread nD τ).loc main_arg1)))⟩,
       ⟨S1x100000x64, broadcastInDim S1x100000x64 ![1, 2] bcast_S100000x64_S1x100000x64_1_2
          (Cert.ReferenceIdeal.ReadP.val_main_v186 (F := F) (m ((c.tc : Thread nD τ).loc main_arg0)) (m ((c.tc : Thread nD τ).loc main_arg1)))⟩,
       ⟨S1x100000x64, broadcastInDim S1x100000x64 ![1, 2] bcast_S100000x64_S1x100000x64_1_2
          (Cert.ReferenceIdeal.ReadP.val_main_v236 (F := F) (m ((c.tc : Thread nD τ).loc main_arg0)) (m ((c.tc : Thread nD τ).loc main_arg1)))⟩]
      concatenates_S1x100000x64_S1x100000x64_S1x100000x64_S1x100000x64_S4x100000x64_d0 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  -- the operations after the concatenation leave its result; the concatenation's own operands are met next
  after_results_simp
  dsimp only [Matrix.cons_val]
  -- piece by piece: the operations' composed term, which is the reference's stage unfolded
  refine concat4_congr ?_ ?_ ?_ ?_ <;> after_results_simp <;> rfl

set_option maxHeartbeats 1000000000 in
/-- The transposed stack likewise: hop k is the transposed sparse product (the edge list's two rows exchanged, the transposed weights) applied to the features for k = 0 and to forward hop k for k ≥ 1. -/
theorem ytstack_term {F : FTy → Type} [FloatOps F] (m : (ℓ : Loc nD τ sig) → Buf (Elt F) ℓ) (c : Dev nD) :
    (V (F := F) m c main_v181 : (⟨S4x100000x64, .f32⟩ : BufTy).Contents (Elt F))
      = concatenate S4x100000x64 0
      [⟨S1x100000x64, broadcastInDim S1x100000x64 ![1, 2] bcast_S100000x64_S1x100000x64_1_2
          (Cert.ReferenceIdeal.ReadP.val_main_v93 (F := F) (m ((c.tc : Thread nD τ).loc main_arg0)) (m ((c.tc : Thread nD τ).loc main_arg1)))⟩,
       ⟨S1x100000x64, broadcastInDim S1x100000x64 ![1, 2] bcast_S100000x64_S1x100000x64_1_2
          (Cert.ReferenceIdeal.ReadP.val_main_v149 (F := F) (m ((c.tc : Thread nD τ).loc main_arg0)) (m ((c.tc : Thread nD τ).loc main_arg1)))⟩,
       ⟨S1x100000x64, broadcastInDim S1x100000x64 ![1, 2] bcast_S100000x64_S1x100000x64_1_2
          (Cert.ReferenceIdeal.ReadP.val_main_v199 (F := F) (m ((c.tc : Thread nD τ).loc main_arg0)) (m ((c.tc : Thread nD τ).loc main_arg1)))⟩,
       ⟨S1x100000x64, broadcastInDim S1x100000x64 ![1, 2] bcast_S100000x64_S1x100000x64_1_2
          (Cert.ReferenceIdeal.ReadP.val_main_v249 (F := F) (m ((c.tc : Thread nD τ).loc main_arg0)) (m ((c.tc : Thread nD τ).loc main_arg1)))⟩]
      concatenates_S1x100000x64_S1x100000x64_S1x100000x64_S1x100000x64_S4x100000x64_d0 := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  -- the operations after the concatenation leave its result; the concatenation's own operands are met next
  after_results_simp
  dsimp only [Matrix.cons_val]
  -- piece by piece: the operations' composed term, which is the reference's stage unfolded
  refine concat4_congr ?_ ?_ ?_ ?_ <;> after_results_simp <;> rfl

/-- What the region finds in the forward stack: hop k of the reference's forward propagation, at row n and column q. -/
theorem V_ystack (m : (ℓ : Loc nD τ sig) → Buf (Elt Ideal) ℓ) (c : Dev nD) (k : Fin 4) (n : Fin 100000) (q : Fin 64) :
    V (F := Ideal) m c main_v176 (ix3 k n q)
      = Cert.ReferenceIdeal.Stages.Y (m ((c.tc : Thread nD τ).loc main_arg0)) (m ((c.tc : Thread nD τ).loc main_arg1)) k n q := by
  have e := congrFun (ystack_term (F := Ideal) m c) (ix3 k n q)
  exact e.trans (stack4_apply _ _ _ _ k n q)

/-- What the region finds in the transposed stack: hop k of the reference's transposed propagation, at row n and column q. -/
theorem V_ytstack (m : (ℓ : Loc nD τ sig) → Buf (Elt Ideal) ℓ) (c : Dev nD) (k : Fin 4) (n : Fin 100000) (q : Fin 64) :
    V (F := Ideal) m c main_v181 (ix3 k n q)
      = Cert.ReferenceIdeal.Stages.T (m ((c.tc : Thread nD τ).loc main_arg0)) (m ((c.tc : Thread nD τ).loc main_arg1)) k n q := by
  have e := congrFun (ytstack_term (F := Ideal) m c) (ix3 k n q)
  exact e.trans (stack4_apply _ _ _ _ k n q)

end Cert.KernelIdeal.Host

end
-- ==== Proof.RefValue.lean ====
/-
  The reference's result read at an entry.

  Each linear layer of the reference is a matrix product of a feature array against the transpose of a weight
  matrix, plus a bias row broadcast over the rows: at entry (n, d) it is  Σ_q h(n, q) · W(d, q) + b(d).  For the
  layers of the weight stacks the weight matrix is slice k of the stack (entry (k, d, q)) and the bias is row k of
  the bias stack (entry (k, d)); for the zero-order layers they are the arguments themselves.  The result combines
  the ten layers pointwise:  ½ · ((((L₀ + L_z) + L₁·½) + L₂·¼) + L₃·⅛)  for the forward branch plus the same for the
  transposed branch.  The propagated features stay opaque (they are the hops `Y` and `T`).
-/
import proofs.«124106_j28664611733983_2_alg».proof.Proof.RefStages
import proofs.«124106_j28664611733983_2_alg».proof.Proof.Spec

noncomputable section

open scoped BigOperators

namespace Cert.ReferenceIdeal.RefValue

open Cert.ReferenceIdeal Cert.ReferenceIdeal.ReadP Cert.ReferenceIdeal.Stages Idealize.ShloMosaic Idealize.ShloMosaic.ValueIdx

/-! ## Row-major arithmetic of a 64 × 64 matrix -/

theorem div64 (d q : Fin 64) : (d.val * 64 + q.val) / 64 % 64 = d.val := by
  have hd := d.isLt; have hq := q.isLt; omega

theorem mod64 (d q : Fin 64) : (d.val * 64 + q.val) % 64 = q.val := by
  have hd := d.isLt; have hq := q.isLt; omega

theorem mod64' (d : Fin 64) : d.val % 64 = d.val := Nat.mod_eq_of_lt d.isLt

/-! ## The hops, by name

  Entry `k` of a four-entry list is its `k`-th member; so hop `k`, read at `(n, q)`, is the `k`-th propagation stage at
  `(n, q)`.  The list lemmas are stated over an abstract member type, so that nothing about the members is opened. -/

theorem vec4_0 {α : Type} (a b c d : α) : ![a, b, c, d] 0 = a := rfl
theorem vec4_1 {α : Type} (a b c d : α) : ![a, b, c, d] 1 = b := rfl
theorem vec4_2 {α : Type} (a b c d : α) : ![a, b, c, d] 2 = c := rfl
theorem vec4_3 {α : Type} (a b c d : α) : ![a, b, c, d] 3 = d := rfl

theorem Y_0 (x0 : (⟨S100000x64, .f32⟩ : BufTy).Contents (Elt Ideal)) (x1 : (⟨S2x1600000, .i32⟩ : BufTy).Contents (Elt Ideal)) (n : Fin 100000) (q : Fin 64) :
    Y x0 x1 0 n q = val_main_v80 (F := Ideal) x0 x1 (ix2 n q) :=
  congrFun (vec4_0 (val_main_v80 (F := Ideal) x0 x1) (val_main_v136 (F := Ideal) x0 x1) (val_main_v186 (F := Ideal) x0 x1) (val_main_v236 (F := Ideal) x0 x1)) (ix2 n q)
theorem T_0 (x0 : (⟨S100000x64, .f32⟩ : BufTy).Contents (Elt Ideal)) (x1 : (⟨S2x1600000, .i32⟩ : BufTy).Contents (Elt Ideal)) (n : Fin 100000) (q : Fin 64) :
    T x0 x1 0 n q = val_main_v93 (F := Ideal) x0 x1 (ix2 n q) :=
  congrFun (vec4_0 (val_main_v93 (F := Ideal) x0 x1) (val_main_v149 (F := Ideal) x0 x1) (val_main_v199 (F := Ideal) x0 x1) (val_main_v249 (F := Ideal) x0 x1)) (ix2 n q)
theorem Y_1 (x0 : (⟨S100000x64, .f32⟩ : BufTy).Contents (Elt Ideal)) (x1 : (⟨S2x1600000, .i32⟩ : BufTy).Contents (Elt Ideal)) (n : Fin 100000) (q : Fin 64) :
    Y x0 x1 1 n q = val_main_v136 (F := Ideal) x0 x1 (ix2 n q) :=
  congrFun (vec4_1 (val_main_v80 (F := Ideal) x0 x1) (val_main_v136 (F := Ideal) x0 x1) (val_main_v186 (F := Ideal) x0 x1) (val_main_v236 (F := Ideal) x0 x1)) (ix2 n q)
theorem T_1 (x0 : (⟨S100000x64, .f32⟩ : BufTy).Contents (Elt Ideal)) (x1 : (⟨S2x1600000, .i32⟩ : BufTy).Contents (Elt Ideal)) (n : Fin 100000) (q : Fin 64) :
    T x0 x1 1 n q = val_main_v149 (F := Ideal) x0 x1 (ix2 n q) :=
  congrFun (vec4_1 (val_main_v93 (F := Ideal) x0 x1) (val_main_v149 (F := Ideal) x0 x1) (val_main_v199 (F := Ideal) x0 x1) (val_main_v249 (F := Ideal) x0 x1)) (ix2 n q)
theorem Y_2 (x0 : (⟨S100000x64, .f32⟩ : BufTy).Contents (Elt Ideal)) (x1 : (⟨S2x1600000, .i32⟩ : BufTy).Contents (Elt Ideal)) (n : Fin 100000) (q : Fin 64) :
    Y x0 x1 2 n q = val_main_v186 (F := Ideal) x0 x1 (ix2 n q) :=
  congrFun (vec4_2 (val_main_v80 (F := Ideal) x0 x1) (val_main_v136 (F := Ideal) x0 x1) (val_main_v186 (F := Ideal) x0 x1) (val_main_v236 (F := Ideal) x0 x1)) (ix2 n q)
theorem T_2 (x0 : (⟨S100000x64, .f32⟩ : BufTy).Contents (Elt Ideal)) (x1 : (⟨S2x1600000, .i32⟩ : BufTy).Contents (Elt Ideal)) (n : Fin 100000) (q : Fin 64) :
    T x0 x1 2 n q = val_main_v199 (F := Ideal) x0 x1 (ix2 n q) :=
  congrFun (vec4_2 (val_main_v93 (F := Ideal) x0 x1) (val_main_v149 (F := Ideal) x0 x1) (val_main_v199 (F := Ideal) x0 x1) (val_main_v249 (F := Ideal) x0 x1)) (ix2 n q)
theorem Y_3 (x0 : (⟨S100000x64, .f32⟩ : BufTy).Contents (Elt Ideal)) (x1 : (⟨S2x1600000, .i32⟩ : BufTy).Contents (Elt Ideal)) (n : Fin 100000) (q : Fin 64) :
    Y x0 x1 3 n q = val_main_v236 (F := Ideal) x0 x1 (ix2 n q) :=
  congrFun (vec4_3 (val_main_v80 (F := Ideal) x0 x1) (val_main_v136 (F := Ideal) x0 x1) (val_main_v186 (F := Ideal) x0 x1) (val_main_v236 (F := Ideal) x0 x1)) (ix2 n q)
theorem T_3 (x0 : (⟨S100000x64, .f32⟩ : BufTy).Contents (Elt Ideal)) (x1 : (⟨S2x1600000, .i32⟩ : BufTy).Contents (Elt Ideal)) (n : Fin 100000) (q : Fin 64) :
    T x0 x1 3 n q = val_main_v249 (F := Ideal) x0 x1 (ix2 n q) :=
  congrFun (vec4_3 (val_main_v93 (F := Ideal) x0 x1) (val_main_v149 (F := Ideal) x0 x1) (val_main_v199 (F := Ideal) x0 x1) (val_main_v249 (F := Ideal) x0 x1)) (ix2 n q)

/-! ## The layers of the weight stacks -/

/-- Left operand of product 99: entry `(n, q)`. -/
theorem lidx_v99 (n : Fin 100000) (d q : Fin 64) : lidx_main_v99 (ix2 n d) q = ix2 n q :=
  funext fun a => Fin.ext (by match a with | ⟨0, _⟩ => rfl | ⟨1, _⟩ => rfl)

/-- Right operand of product 99, through the transpose, the reshape and the slice: entry `(0, d, q)` of the stack. -/
theorem widx_v99 (n : Fin 100000) (d q : Fin 64) :
    idx_main_v94 (idx_main_v95 (idx_main_v98 (ridx_main_v99 (ix2 n d) q))) = ix3 (0 : Fin 4) d q :=
  funext fun a => Fin.ext (by
    match a with
    | ⟨0, _⟩ => rfl
    | ⟨1, _⟩ => exact div64 d q
    | ⟨2, _⟩ => exact mod64 d q)

/-- The bias of layer 102, through the two broadcasts, the reshape and the slice: entry `(0, d)` of the bias stack. -/
theorem bidx_v102 (n : Fin 100000) (d : Fin 64) :
    idx_main_v96 (idx_main_v97 (idx_main_v100 (idx_main_v101 (ix2 n d)))) = ix2 (0 : Fin 4) d :=
  funext fun a => Fin.ext (by
    match a with
    | ⟨0, _⟩ => rfl
    | ⟨1, _⟩ => exact mod64' d)

/-- Layer 102: hop 0 of the forward features against slice 0 of the weight stack, plus row 0 of the bias stack. -/
theorem layer_v102 (x0 : (⟨S100000x64, .f32⟩ : BufTy).Contents (Elt Ideal)) (x1 : (⟨S2x1600000, .i32⟩ : BufTy).Contents (Elt Ideal)) (x2 : (⟨S4x64x64, .f32⟩ : BufTy).Contents (Elt Ideal)) (x3 : (⟨S4x64, .f32⟩ : BufTy).Contents (Elt Ideal)) (n : Fin 100000) (d : Fin 64) :
    val_main_v102 (F := Ideal) x0 x1 x2 x3 (ix2 n d)
      = Cert.Faber.lin (Y x0 x1 0) (fun (a b : Fin 64) => x2 (ix3 (0 : Fin 4) a b)) (fun (a : Fin 64) => x3 (ix2 (0 : Fin 4) a)) n d := by
  unfold Cert.Faber.lin
  rw [val_main_v102_apply, Ideal.addf_def, val_main_v99_apply, val_main_v101_apply, val_main_v100_apply, val_main_v97_apply, val_main_v96_apply, bidx_v102]
  refine congrArg (fun s : EReal => s + x3 (ix2 (0 : Fin 4) d)) (Finset.sum_congr rfl fun q _ => ?_)
  rw [val_main_v98_apply, val_main_v95_apply, val_main_v94_apply, lidx_v99, widx_v99, Y_0]

/-- Left operand of product 108: entry `(n, q)`. -/
theorem lidx_v108 (n : Fin 100000) (d q : Fin 64) : lidx_main_v108 (ix2 n d) q = ix2 n q :=
  funext fun a => Fin.ext (by match a with | ⟨0, _⟩ => rfl | ⟨1, _⟩ => rfl)

/-- Right operand of product 108, through the transpose, the reshape and the slice: entry `(0, d, q)` of the stack. -/
theorem widx_v108 (n : Fin 100000) (d q : Fin 64) :
    idx_main_v103 (idx_main_v104 (idx_main_v107 (ridx_main_v108 (ix2 n d) q))) = ix3 (0 : Fin 4) d q :=
  funext fun a => Fin.ext (by
    match a with
    | ⟨0, _⟩ => rfl
    | ⟨1, _⟩ => exact div64 d q
    | ⟨2, _⟩ => exact mod64 d q)

/-- The bias of layer 111, through the two broadcasts, the reshape and the slice: entry `(0, d)` of the bias stack. -/
theorem bidx_v111 (n : Fin 100000) (d : Fin 64) :
    idx_main_v105 (idx_main_v106 (idx_main_v109 (idx_main_v110 (ix2 n d)))) = ix2 (0 : Fin 4) d :=
  funext fun a => Fin.ext (by
    match a with
    | ⟨0, _⟩ => rfl
    | ⟨1, _⟩ => exact mod64' d)

/-- Layer 111: hop 0 of the transposed features against slice 0 of the weight stack, plus row 0 of the bias stack. -/
theorem layer_v111 (x0 : (⟨S100000x64, .f32⟩ : BufTy).Contents (Elt Ideal)) (x1 : (⟨S2x1600000, .i32⟩ : BufTy).Contents (Elt Ideal)) (x4 : (⟨S4x64x64, .f32⟩ : BufTy).Contents (Elt Ideal)) (x5 : (⟨S4x64, .f32⟩ : BufTy).Contents (Elt Ideal)) (n : Fin 100000) (d : Fin 64) :
    val_main_v111 (F := Ideal) x0 x1 x4 x5 (ix2 n d)
      = Cert.Faber.lin (T x0 x1 0) (fun (a b : Fin 64) => x4 (ix3 (0 : Fin 4) a b)) (fun (a : Fin 64) => x5 (ix2 (0 : Fin 4) a)) n d := by
  unfold Cert.Faber.lin
  rw [val_main_v111_apply, Ideal.addf_def, val_main_v108_apply, val_main_v110_apply, val_main_v109_apply, val_main_v106_apply, val_main_v105_apply, bidx_v111]
  refine congrArg (fun s : EReal => s + x5 (ix2 (0 : Fin 4) d)) (Finset.sum_congr rfl fun q _ => ?_)
  rw [val_main_v107_apply, val_main_v104_apply, val_main_v103_apply, lidx_v108, widx_v108, T_0]

/-- Left operand of product 155: entry `(n, q)`. -/
theorem lidx_v155 (n : Fin 100000) (d q : Fin 64) : lidx_main_v155 (ix2 n d) q = ix2 n q :=
  funext fun a => Fin.ext (by match a with | ⟨0, _⟩ => rfl | ⟨1, _⟩ => rfl)

/-- Right operand of product 155, through the transpose, the reshape and the slice: entry `(1, d, q)` of the stack. -/
theorem widx_v155 (n : Fin 100000) (d q : Fin 64) :
    idx_main_v150 (idx_main_v151 (idx_main_v154 (ridx_main_v155 (ix2 n d) q))) = ix3 (1 : Fin 4) d q :=
  funext fun a => Fin.ext (by
    match a with
    | ⟨0, _⟩ => rfl
    | ⟨1, _⟩ => exact div64 d q
    | ⟨2, _⟩ => exact mod64 d q)

/-- The bias of layer 158, through the two broadcasts, the reshape and the slice: entry `(1, d)` of the bias stack. -/
theorem bidx_v158 (n : Fin 100000) (d : Fin 64) :
    idx_main_v152 (idx_main_v153 (idx_main_v156 (idx_main_v157 (ix2 n d)))) = ix2 (1 : Fin 4) d :=
  funext fun a => Fin.ext (by
    match a with
    | ⟨0, _⟩ => rfl
    | ⟨1, _⟩ => exact mod64' d)

/-- Layer 158: hop 1 of the forward features against slice 1 of the weight stack, plus row 1 of the bias stack. -/
theorem layer_v158 (x0 : (⟨S100000x64, .f32⟩ : BufTy).Contents (Elt Ideal)) (x1 : (⟨S2x1600000, .i32⟩ : BufTy).Contents (Elt Ideal)) (x2 : (⟨S4x64x64, .f32⟩ : BufTy).Contents (Elt Ideal)) (x3 : (⟨S4x64, .f32⟩ : BufTy).Contents (Elt Ideal)) (n : Fin 100000) (d : Fin 64) :
    val_main_v158 (F := Ideal) x0 x1 x2 x3 (ix2 n d)
      = Cert.Faber.lin (Y x0 x1 1) (fun (a b : Fin 64) => x2 (ix3 (1 : Fin 4) a b)) (fun (a : Fin 64) => x3 (ix2 (1 : Fin 4) a)) n d := by
  unfold Cert.Faber.lin
  rw [val_main_v158_apply, Ideal.addf_def, val_main_v155_apply, val_main_v157_apply, val_main_v156_apply, val_main_v153_apply, val_main_v152_apply, bidx_v158]
  refine congrArg (fun s : EReal => s + x3 (ix2 (1 : Fin 4) d)) (Finset.sum_congr rfl fun q _ => ?_)
  rw [val_main_v154_apply, val_main_v151_apply, val_main_v150_apply, lidx_v155, widx_v155, Y_1]

/-- Left operand of product 167: entry `(n, q)`. -/
theorem lidx_v167 (n : Fin 100000) (d q : Fin 64) : lidx_main_v167 (ix2 n d) q = ix2 n q :=
  funext fun a => Fin.ext (by match a with | ⟨0, _⟩ => rfl | ⟨1, _⟩ => rfl)

/-- Right operand of product 167, through the transpose, the reshape and the slice: entry `(1, d, q)` of the stack. -/
theorem widx_v167 (n : Fin 100000) (d q : Fin 64) :
    idx_main_v162 (idx_main_v163 (idx_main_v166 (ridx_main_v167 (ix2 n d) q))) = ix3 (1 : Fin 4) d q :=
  funext fun a => Fin.ext (by
    match a with
    | ⟨0, _⟩ => rfl
    | ⟨1, _⟩ => exact div64 d q
    | ⟨2, _⟩ => exact mod64 d q)

/-- The bias of layer 170, through the two broadcasts, the reshape and the slice: entry `(1, d)` of the bias stack. -/
theorem bidx_v170 (n : Fin 100000) (d : Fin 64) :
    idx_main_v164 (idx_main_v165 (idx_main_v168 (idx_main_v169 (ix2 n d)))) = ix2 (1 : Fin 4) d :=
  funext fun a => Fin.ext (by
    match a with
    | ⟨0, _⟩ => rfl
    | ⟨1, _⟩ => exact mod64' d)

/-- Layer 170: hop 1 of the transposed features against slice 1 of the weight stack, plus row 1 of the bias stack. -/
theorem layer_v170 (x0 : (⟨S100000x64, .f32⟩ : BufTy).Contents (Elt Ideal)) (x1 : (⟨S2x1600000, .i32⟩ : BufTy).Contents (Elt Ideal)) (x4 : (⟨S4x64x64, .f32⟩ : BufTy).Contents (Elt Ideal)) (x5 : (⟨S4x64, .f32⟩ : BufTy).Contents (Elt Ideal)) (n : Fin 100000) (d : Fin 64) :
    val_main_v170 (F := Ideal) x0 x1 x4 x5 (ix2 n d)
      = Cert.Faber.lin (T x0 x1 1) (fun (a b : Fin 64) => x4 (ix3 (1 : Fin 4) a b)) (fun (a : Fin 64) => x5 (ix2 (1 : Fin 4) a)) n d := by
  unfold Cert.Faber.lin
  rw [val_main_v170_apply, Ideal.addf_def, val_main_v167_apply, val_main_v169_apply, val_main_v168_apply, val_main_v165_apply, val_main_v164_apply, bidx_v170]
  refine congrArg (fun s : EReal => s + x5 (ix2 (1 : Fin 4) d)) (Finset.sum_congr rfl fun q _ => ?_)
  rw [val_main_v166_apply, val_main_v163_apply, val_main_v162_apply, lidx_v167, widx_v167, T_1]

/-- Left operand of product 205: entry `(n, q)`. -/
theorem lidx_v205 (n : Fin 100000) (d q : Fin 64) : lidx_main_v205 (ix2 n d) q = ix2 n q :=
  funext fun a => Fin.ext (by match a with | ⟨0, _⟩ => rfl | ⟨1, _⟩ => rfl)

/-- Right operand of product 205, through the transpose, the reshape and the slice: entry `(2, d, q)` of the stack. -/
theorem widx_v205 (n : Fin 100000) (d q : Fin 64) :
    idx_main_v200 (idx_main_v201 (idx_main_v204 (ridx_main_v205 (ix2 n d) q))) = ix3 (2 : Fin 4) d q :=
  funext fun a => Fin.ext (by
    match a with
    | ⟨0, _⟩ => rfl
    | ⟨1, _⟩ => exact div64 d q
    | ⟨2, _⟩ => exact mod64 d q)

/-- The bias of layer 208, through the two broadcasts, the reshape and the slice: entry `(2, d)` of the bias stack. -/
theorem bidx_v208 (n : Fin 100000) (d : Fin 64) :
    idx_main_v202 (idx_main_v203 (idx_main_v206 (idx_main_v207 (ix2 n d)))) = ix2 (2 : Fin 4) d :=
  funext fun a => Fin.ext (by
    match a with
    | ⟨0, _⟩ => rfl
    | ⟨1, _⟩ => exact mod64' d)

/-- Layer 208: hop 2 of the forward features against slice 2 of the weight stack, plus row 2 of the bias stack. -/
theorem layer_v208 (x0 : (⟨S100000x64, .f32⟩ : BufTy).Contents (Elt Ideal)) (x1 : (⟨S2x1600000, .i32⟩ : BufTy).Contents (Elt Ideal)) (x2 : (⟨S4x64x64, .f32⟩ : BufTy).Contents (Elt Ideal)) (x3 : (⟨S4x64, .f32⟩ : BufTy).Contents (Elt Ideal)) (n : Fin 100000) (d : Fin 64) :
    val_main_v208 (F := Ideal) x0 x1 x2 x3 (ix2 n d)
      = Cert.Faber.lin (Y x0 x1 2) (fun (a b : Fin 64) => x2 (ix3 (2 : Fin 4) a b)) (fun (a : Fin 64) => x3 (ix2 (2 : Fin 4) a)) n d := by
  unfold Cert.Faber.lin
  rw [val_main_v208_apply, Ideal.addf_def, val_main_v205_apply, val_main_v207_apply, val_main_v206_apply, val_main_v203_apply, val_main_v202_apply, bidx_v208]
  refine congrArg (fun s : EReal => s + x3 (ix2 (2 : Fin 4) d)) (Finset.sum_congr rfl fun q _ => ?_)
  rw [val_main_v204_apply, val_main_v201_apply, val_main_v200_apply, lidx_v205, widx_v205, Y_2]

/-- Left operand of product 217: entry `(n, q)`. -/
theorem lidx_v217 (n : Fin 100000) (d q : Fin 64) : lidx_main_v217 (ix2 n d) q = ix2 n q :=
  funext fun a => Fin.ext (by match a with | ⟨0, _⟩ => rfl | ⟨1, _⟩ => rfl)

/-- Right operand of product 217, through the transpose, the reshape and the slice: entry `(2, d, q)` of the stack. -/
theorem widx_v217 (n : Fin 100000) (d q : Fin 64) :
    idx_main_v212 (idx_main_v213 (idx_main_v216 (ridx_main_v217 (ix2 n d) q))) = ix3 (2 : Fin 4) d q :=
  funext fun a => Fin.ext (by
    match a with
    | ⟨0, _⟩ => rfl
    | ⟨1, _⟩ => exact div64 d q
    | ⟨2, _⟩ => exact mod64 d q)

/-- The bias of layer 220, through the two broadcasts, the reshape and the slice: entry `(2, d)` of the bias stack. -/
theorem bidx_v220 (n : Fin 100000) (d : Fin 64) :
    idx_main_v214 (idx_main_v215 (idx_main_v218 (idx_main_v219 (ix2 n d)))) = ix2 (2 : Fin 4) d :=
  funext fun a => Fin.ext (by
    match a with
    | ⟨0, _⟩ => rfl
    | ⟨1, _⟩ => exact mod64' d)

/-- Layer 220: hop 2 of the transposed features against slice 2 of the weight stack, plus row 2 of the bias stack. -/
theorem layer_v220 (x0 : (⟨S100000x64, .f32⟩ : BufTy).Contents (Elt Ideal)) (x1 : (⟨S2x1600000, .i32⟩ : BufTy).Contents (Elt Ideal)) (x4 : (⟨S4x64x64, .f32⟩ : BufTy).Contents (Elt Ideal)) (x5 : (⟨S4x64, .f32⟩ : BufTy).Contents (Elt Ideal)) (n : Fin 100000) (d : Fin 64) :
    val_main_v220 (F := Ideal) x0 x1 x4 x5 (ix2 n d)
      = Cert.Faber.lin (T x0 x1 2) (fun (a b : Fin 64) => x4 (ix3 (2 : Fin 4) a b)) (fun (a : Fin 64) => x5 (ix2 (2 : Fin 4) a)) n d := by
  unfold Cert.Faber.lin
  rw [val_main_v220_apply, Ideal.addf_def, val_main_v217_apply, val_main_v219_apply, val_main_v218_apply, val_main_v215_apply, val_main_v214_apply, bidx_v220]
  refine congrArg (fun s : EReal => s + x5 (ix2 (2 : Fin 4) d)) (Finset.sum_congr rfl fun q _ => ?_)
  rw [val_main_v216_apply, val_main_v213_apply, val_main_v212_apply, lidx_v217, widx_v217, T_2]

/-- Left operand of product 255: entry `(n, q)`. -/
theorem lidx_v255 (n : Fin 100000) (d q : Fin 64) : lidx_main_v255 (ix2 n d) q = ix2 n q :=
  funext fun a => Fin.ext (by match a with | ⟨0, _⟩ => rfl | ⟨1, _⟩ => rfl)

/-- Right operand of product 255, through the transpose, the reshape and the slice: entry `(3, d, q)` of the stack. -/
theorem widx_v255 (n : Fin 100000) (d q : Fin 64) :
    idx_main_v250 (idx_main_v251 (idx_main_v254 (ridx_main_v255 (ix2 n d) q))) = ix3 (3 : Fin 4) d q :=
  funext fun a => Fin.ext (by
    match a with
    | ⟨0, _⟩ => rfl
    | ⟨1, _⟩ => exact div64 d q
    | ⟨2, _⟩ => exact mod64 d q)

/-- The bias of layer 258, through the two broadcasts, the reshape and the slice: entry `(3, d)` of the bias stack. -/
theorem bidx_v258 (n : Fin 100000) (d : Fin 64) :
    idx_main_v252 (idx_main_v253 (idx_main_v256 (idx_main_v257 (ix2 n d)))) = ix2 (3 : Fin 4) d :=
  funext fun a => Fin.ext (by
    match a with
    | ⟨0, _⟩ => rfl
    | ⟨1, _⟩ => exact mod64' d)

/-- Layer 258: hop 3 of the forward features against slice 3 of the weight stack, plus row 3 of the bias stack. -/
theorem layer_v258 (x0 : (⟨S100000x64, .f32⟩ : BufTy).Contents (Elt Ideal)) (x1 : (⟨S2x1600000, .i32⟩ : BufTy).Contents (Elt Ideal)) (x2 : (⟨S4x64x64, .f32⟩ : BufTy).Contents (Elt Ideal)) (x3 : (⟨S4x64, .f32⟩ : BufTy).Contents (Elt Ideal)) (n : Fin 100000) (d : Fin 64) :
    val_main_v258 (F := Ideal) x0 x1 x2 x3 (ix2 n d)
      = Cert.Faber.lin (Y x0 x1 3) (fun (a b : Fin 64) => x2 (ix3 (3 : Fin 4) a b)) (fun (a : Fin 64) => x3 (ix2 (3 : Fin 4) a)) n d := by
  unfold Cert.Faber.lin
  rw [val_main_v258_apply, Ideal.addf_def, val_main_v255_apply, val_main_v257_apply, val_main_v256_apply, val_main_v253_apply, val_main_v252_apply, bidx_v258]
  refine congrArg (fun s : EReal => s + x3 (ix2 (3 : Fin 4) d)) (Finset.sum_congr rfl fun q _ => ?_)
  rw [val_main_v254_apply, val_main_v251_apply, val_main_v250_apply, lidx_v255, widx_v255, Y_3]

/-- Left operand of product 267: entry `(n, q)`. -/
theorem lidx_v267 (n : Fin 100000) (d q : Fin 64) : lidx_main_v267 (ix2 n d) q = ix2 n q :=
  funext fun a => Fin.ext (by match a with | ⟨0, _⟩ => rfl | ⟨1, _⟩ => rfl)

/-- Right operand of product 267, through the transpose, the reshape and the slice: entry `(3, d, q)` of the stack. -/
theorem widx_v267 (n : Fin 100000) (d q : Fin 64) :
    idx_main_v262 (idx_main_v263 (idx_main_v266 (ridx_main_v267 (ix2 n d) q))) = ix3 (3 : Fin 4) d q :=
  funext fun a => Fin.ext (by
    match a with
    | ⟨0, _⟩ => rfl
    | ⟨1, _⟩ => exact div64 d q
    | ⟨2, _⟩ => exact mod64 d q)

/-- The bias of layer 270, through the two broadcasts, the reshape and the slice: entry `(3, d)` of the bias stack. -/
theorem bidx_v270 (n : Fin 100000) (d : Fin 64) :
    idx_main_v264 (idx_main_v265 (idx_main_v268 (idx_main_v269 (ix2 n d)))) = ix2 (3 : Fin 4) d :=
  funext fun a => Fin.ext (by
    match a with
    | ⟨0, _⟩ => rfl
    | ⟨1, _⟩ => exact mod64' d)

/-- Layer 270: hop 3 of the transposed features against slice 3 of the weight stack, plus row 3 of the bias stack. -/
theorem layer_v270 (x0 : (⟨S100000x64, .f32⟩ : BufTy).Contents (Elt Ideal)) (x1 : (⟨S2x1600000, .i32⟩ : BufTy).Contents (Elt Ideal)) (x4 : (⟨S4x64x64, .f32⟩ : BufTy).Contents (Elt Ideal)) (x5 : (⟨S4x64, .f32⟩ : BufTy).Contents (Elt Ideal)) (n : Fin 100000) (d : Fin 64) :
    val_main_v270 (F := Ideal) x0 x1 x4 x5 (ix2 n d)
      = Cert.Faber.lin (T x0 x1 3) (fun (a b : Fin 64) => x4 (ix3 (3 : Fin 4) a b)) (fun (a : Fin 64) => x5 (ix2 (3 : Fin 4) a)) n d := by
  unfold Cert.Faber.lin
  rw [val_main_v270_apply, Ideal.addf_def, val_main_v267_apply, val_main_v269_apply, val_main_v268_apply, val_main_v265_apply, val_main_v264_apply, bidx_v270]
  refine congrArg (fun s : EReal => s + x5 (ix2 (3 : Fin 4) d)) (Finset.sum_congr rfl fun q _ => ?_)
  rw [val_main_v266_apply, val_main_v263_apply, val_main_v262_apply, lidx_v267, widx_v267, T_3]

/-! ## The zero-order layers -/

/-- Left operand of product 113: entry `(n, q)`. -/
theorem lidx_v113 (n : Fin 100000) (d q : Fin 64) : lidx_main_v113 (ix2 n d) q = ix2 n q :=
  funext fun a => Fin.ext (by match a with | ⟨0, _⟩ => rfl | ⟨1, _⟩ => rfl)

/-- Right operand of product 113, through the transpose: entry `(d, q)` of the weight matrix. -/
theorem widx_v113 (n : Fin 100000) (d q : Fin 64) : idx_main_v112 (ridx_main_v113 (ix2 n d) q) = ix2 d q :=
  funext fun a => Fin.ext (by match a with | ⟨0, _⟩ => rfl | ⟨1, _⟩ => rfl)

/-- The bias of layer 116, through the two broadcasts: entry `d` of the bias. -/
theorem bidx_v116 (n : Fin 100000) (d : Fin 64) : idx_main_v114 (idx_main_v115 (ix2 n d)) = ix1 d :=
  funext fun a => Fin.ext (by match a with | ⟨0, _⟩ => rfl)

/-- Layer 116: the input features against the zero-order weight matrix, plus the zero-order bias. -/
theorem layer_v116 (x0 : (⟨S100000x64, .f32⟩ : BufTy).Contents (Elt Ideal)) (x6 : (⟨S64x64, .f32⟩ : BufTy).Contents (Elt Ideal)) (x7 : (⟨S64, .f32⟩ : BufTy).Contents (Elt Ideal)) (n : Fin 100000) (d : Fin 64) :
    val_main_v116 (F := Ideal) x0 x6 x7 (ix2 n d)
      = Cert.Faber.lin (fun (n : Fin 100000) (q : Fin 64) => x0 (ix2 n q)) (fun (a b : Fin 64) => x6 (ix2 a b)) (fun (a : Fin 64) => x7 (ix1 a)) n d := by
  unfold Cert.Faber.lin
  rw [val_main_v116_apply, Ideal.addf_def, val_main_v113_apply, val_main_v115_apply, val_main_v114_apply, bidx_v116]
  refine congrArg (fun s : EReal => s + x7 (ix1 d)) (Finset.sum_congr rfl fun q _ => ?_)
  rw [val_main_v112_apply, lidx_v113, widx_v113]

/-- Left operand of product 119: entry `(n, q)`. -/
theorem lidx_v119 (n : Fin 100000) (d q : Fin 64) : lidx_main_v119 (ix2 n d) q = ix2 n q :=
  funext fun a => Fin.ext (by match a with | ⟨0, _⟩ => rfl | ⟨1, _⟩ => rfl)

/-- Right operand of product 119, through the transpose: entry `(d, q)` of the weight matrix. -/
theorem widx_v119 (n : Fin 100000) (d q : Fin 64) : idx_main_v118 (ridx_main_v119 (ix2 n d) q) = ix2 d q :=
  funext fun a => Fin.ext (by match a with | ⟨0, _⟩ => rfl | ⟨1, _⟩ => rfl)

/-- The bias of layer 122, through the two broadcasts: entry `d` of the bias. -/
theorem bidx_v122 (n : Fin 100000) (d : Fin 64) : idx_main_v120 (idx_main_v121 (ix2 n d)) = ix1 d :=
  funext fun a => Fin.ext (by match a with | ⟨0, _⟩ => rfl)

/-- Layer 122: the input features against the zero-order weight matrix, plus the zero-order bias. -/
theorem layer_v122 (x0 : (⟨S100000x64, .f32⟩ : BufTy).Contents (Elt Ideal)) (x8 : (⟨S64x64, .f32⟩ : BufTy).Contents (Elt Ideal)) (x9 : (⟨S64, .f32⟩ : BufTy).Contents (Elt Ideal)) (n : Fin 100000) (d : Fin 64) :
    val_main_v122 (F := Ideal) x0 x8 x9 (ix2 n d)
      = Cert.Faber.lin (fun (n : Fin 100000) (q : Fin 64) => x0 (ix2 n q)) (fun (a b : Fin 64) => x8 (ix2 a b)) (fun (a : Fin 64) => x9 (ix1 a)) n d := by
  unfold Cert.Faber.lin
  rw [val_main_v122_apply, Ideal.addf_def, val_main_v119_apply, val_main_v121_apply, val_main_v120_apply, bidx_v122]
  refine congrArg (fun s : EReal => s + x9 (ix1 d)) (Finset.sum_congr rfl fun q _ => ?_)
  rw [val_main_v118_apply, lidx_v119, widx_v119]

/-! ## The two branches and the result -/

/-- The forward branch: the first hop's layer plus the zero-order layer, then the later hops' layers scaled by ½, ¼, ⅛. -/
theorem branch_sd (x0 : (⟨S100000x64, .f32⟩ : BufTy).Contents (Elt Ideal)) (x1 : (⟨S2x1600000, .i32⟩ : BufTy).Contents (Elt Ideal)) (x2 : (⟨S4x64x64, .f32⟩ : BufTy).Contents (Elt Ideal)) (x3 : (⟨S4x64, .f32⟩ : BufTy).Contents (Elt Ideal)) (x6 : (⟨S64x64, .f32⟩ : BufTy).Contents (Elt Ideal)) (x7 : (⟨S64, .f32⟩ : BufTy).Contents (Elt Ideal)) (n : Fin 100000) (d : Fin 64) :
    val_main_v261 (F := Ideal) x0 x1 x2 x3 x6 x7 (ix2 n d)
      = Cert.Faber.branchDir (fun (n : Fin 100000) (q : Fin 64) => x0 (ix2 n q)) (Y x0 x1)
          (fun (k : Fin 4) (a b : Fin 64) => x2 (ix3 k a b)) (fun (k : Fin 4) (a : Fin 64) => x3 (ix2 k a))
          (fun (a b : Fin 64) => x6 (ix2 a b)) (fun (a : Fin 64) => x7 (ix1 a)) n d := by
  unfold Cert.Faber.branchDir
  rw [val_main_v261_apply, val_main_v260_apply, val_main_v259_apply, val_main_cst_52_apply,
    val_main_v211_apply, val_main_v210_apply, val_main_v209_apply, val_main_cst_44_apply,
    val_main_v161_apply, val_main_v160_apply, val_main_v159_apply, val_main_cst_36_apply,
    val_main_v117_apply,
    layer_v258, layer_v208, layer_v158, layer_v102, layer_v116]
  simp only [Ideal.addf_def, Ideal.mulf_def, Ideal.ofBits_def]

/-- The transposed branch: the first hop's layer plus the zero-order layer, then the later hops' layers scaled by ½, ¼, ⅛. -/
theorem branch_ds (x0 : (⟨S100000x64, .f32⟩ : BufTy).Contents (Elt Ideal)) (x1 : (⟨S2x1600000, .i32⟩ : BufTy).Contents (Elt Ideal)) (x4 : (⟨S4x64x64, .f32⟩ : BufTy).Contents (Elt Ideal)) (x5 : (⟨S4x64, .f32⟩ : BufTy).Contents (Elt Ideal)) (x8 : (⟨S64x64, .f32⟩ : BufTy).Contents (Elt Ideal)) (x9 : (⟨S64, .f32⟩ : BufTy).Contents (Elt Ideal)) (n : Fin 100000) (d : Fin 64) :
    val_main_v273 (F := Ideal) x0 x1 x4 x5 x8 x9 (ix2 n d)
      = Cert.Faber.branchDir (fun (n : Fin 100000) (q : Fin 64) => x0 (ix2 n q)) (T x0 x1)
          (fun (k : Fin 4) (a b : Fin 64) => x4 (ix3 k a b)) (fun (k : Fin 4) (a : Fin 64) => x5 (ix2 k a))
          (fun (a b : Fin 64) => x8 (ix2 a b)) (fun (a : Fin 64) => x9 (ix1 a)) n d := by
  unfold Cert.Faber.branchDir
  rw [val_main_v273_apply, val_main_v272_apply, val_main_v271_apply, val_main_cst_53_apply,
    val_main_v223_apply, val_main_v222_apply, val_main_v221_apply, val_main_cst_45_apply,
    val_main_v173_apply, val_main_v172_apply, val_main_v171_apply, val_main_cst_37_apply,
    val_main_v123_apply,
    layer_v270, layer_v220, layer_v170, layer_v111, layer_v122]
  simp only [Ideal.addf_def, Ideal.mulf_def, Ideal.ofBits_def]

/-- The reference's result at entry `(n, d)`: half the forward branch plus half the transposed branch. -/
theorem result_apply (x0 : (⟨S100000x64, .f32⟩ : BufTy).Contents (Elt Ideal)) (x1 : (⟨S2x1600000, .i32⟩ : BufTy).Contents (Elt Ideal)) (x2 : (⟨S4x64x64, .f32⟩ : BufTy).Contents (Elt Ideal)) (x3 : (⟨S4x64, .f32⟩ : BufTy).Contents (Elt Ideal)) (x4 : (⟨S4x64x64, .f32⟩ : BufTy).Contents (Elt Ideal)) (x5 : (⟨S4x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (n : Fin 100000) (d : Fin 64) :
    val_main_v278 (F := Ideal) x0 x1 x2 x3 x4 x5 x6 x7 x8 x9 (ix2 n d)
      = Cert.Faber.outDir (fun (n : Fin 100000) (q : Fin 64) => x0 (ix2 n q)) (Y x0 x1) (T x0 x1)
          (fun (k : Fin 4) (a b : Fin 64) => x2 (ix3 k a b)) (fun (k : Fin 4) (a : Fin 64) => x3 (ix2 k a))
          (fun (k : Fin 4) (a b : Fin 64) => x4 (ix3 k a b)) (fun (k : Fin 4) (a : Fin 64) => x5 (ix2 k a))
          (fun (a b : Fin 64) => x6 (ix2 a b)) (fun (a : Fin 64) => x7 (ix1 a))
          (fun (a b : Fin 64) => x8 (ix2 a b)) (fun (a : Fin 64) => x9 (ix1 a)) n d := by
  unfold Cert.Faber.outDir
  rw [val_main_v278_apply, val_main_v275_apply, val_main_v274_apply, val_main_cst_54_apply,
    val_main_v277_apply, val_main_v276_apply, val_main_cst_55_apply, branch_sd, branch_ds]
  simp only [Ideal.addf_def, Ideal.mulf_def, Ideal.ofBits_def]

end Cert.ReferenceIdeal.RefValue

end
-- ==== Proof.RefEq.lean ====
/-
  The reference's result, as its run states it, is the last stage of the stage-by-stage reading.
-/
import proofs.«124106_j28664611733983_2_alg».proof.Proof.RefRun
import proofs.«124106_j28664611733983_2_alg».proof.Proof.RefRead

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The term the Run module names `res_main_v278` is the stage. -/
theorem val_main_v278_eq (m : (ℓ : Loc nD τ sig) → Buf (Elt F) ℓ) (c : Dev nD) :
    Cert.ReferenceIdeal.ValueP.res_main_v278 m c = val_main_v278 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v278; rfl

end Cert.ReferenceIdeal.ReadP

end
-- ==== Proof.lean ====
/-
  The certificate of the directional message-passing layer: the tiled kernel against its plain reference.

  Both programs compute the propagated features by the same sparse products (degree-normalised edge weights, a
  gather of the source rows, a scatter-add into the target rows), four hops forward and four hops through the
  transposed adjacency; the kernel program stacks the hops and hands them, with the features and the weights, to a
  region of fifty row blocks of 2000 nodes.  In each branch the kernel accumulates

      ((((0 + L₀) + L₁·½) + L₂·¼) + L₃·⅛) + L_z,      L_k = hop_k · W_kᵀ + b_k,   L_z = x · W_zᵀ + b_z,

  where the reference writes  (((L₀ + L_z) + L₁·½) + L₂·¼) + L₃·⅛ ; the output is ½·(sd branch) + ½·(ds branch) in
  both.  Read over the extended reals the roundings to the narrow float format are the identity and a matrix-unit
  product into zero is the plain sum of products, so the two results differ only by the place of L_z and a zero
  summand: they are equal because addition of extended reals is commutative and associative — for all inputs, so
  the finiteness precondition is never opened.

  The frames: the kernel program is host operations then one region whose body loads, computes and stores through
  literal rectangles (the frame modules, at any float instance); the reference is host operations only (its run).
  The idealization rewrote nothing, so there is nothing to preserve.
-/
import proofs.«124106_j28664611733983_2_alg».proof.Defs
import proofs.«124106_j28664611733983_2_alg».proof.Proof.Gen.Kernel
import proofs.«124106_j28664611733983_2_alg».proof.Proof.Gen.KernelIdeal
import proofs.«124106_j28664611733983_2_alg».proof.Proof.Gen.ReferenceIdeal
import proofs.«124106_j28664611733983_2_alg».proof.Proof.Gen.Pre_finite_inputs
import proofs.«124106_j28664611733983_2_alg».proof.Proof.KFrame
import proofs.«124106_j28664611733983_2_alg».proof.Proof.KIValue
import proofs.«124106_j28664611733983_2_alg».proof.Proof.KIHost
import proofs.«124106_j28664611733983_2_alg».proof.Proof.RefValue
import proofs.«124106_j28664611733983_2_alg».proof.Proof.RefEq
import proofs.«124106_j28664611733983_2_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments as launched. -/
theorem frame_p : Cert.frame_Kernel := fun m ρ _ => Cert.Kernel.Fr.frame m ρ

/-- So does the idealized kernel program. -/
theorem frame_pi : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the ten arguments, the reference's result array is the kernel's: entry (n, d) of
    the reference is the direct arrangement over the reference's own propagated features, entry (n, d) of the kernel
    the accumulated arrangement over what its region finds — the same propagated features, the arguments as launched —
    and the two arrangements agree on the extended reals. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v278 m' c = Cert.KernelIdeal.Val.G m c := by
  obtain ⟨h0, h1, h2, h3, h4, h5, h6, h7, h8, h9⟩ := hagree
  rw [Cert.ReferenceIdeal.ReadP.val_main_v278_eq, h0, h1, h2, h3, h4, h5, h6, h7, h8, h9]
  funext i
  obtain ⟨n, d, rfl⟩ : ∃ (n : Fin 100000) (d : Fin 64), i = ix2 n d := ⟨i 0, i 1, eq_ix2 i⟩
  refine (Cert.ReferenceIdeal.RefValue.result_apply _ _ _ _ _ _ _ _ _ _ n d).trans ?_
  rw [← Cert.Faber.outAcc_eq_outDir, Cert.KernelIdeal.Val.G_apply, Cert.KernelIdeal.Val.Gnd_eq]
  have hY : (fun (k : Fin 4) (n : Fin 100000) (q : Fin 64) => (Cert.KernelIdeal.Fr.V m c Cert.KernelIdeal.main_v176 : Cert.KernelIdeal.S4x100000x64.Idx → EReal) (ix3 k n q))
      = Cert.ReferenceIdeal.Stages.Y (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
    funext fun k => funext fun n => funext fun q => Cert.KernelIdeal.Host.V_ystack m c k n q
  have hT : (fun (k : Fin 4) (n : Fin 100000) (q : Fin 64) => (Cert.KernelIdeal.Fr.V m c Cert.KernelIdeal.main_v181 : Cert.KernelIdeal.S4x100000x64.Idx → EReal) (ix3 k n q))
      = Cert.ReferenceIdeal.Stages.T (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
    funext fun k => funext fun n => funext fun q => Cert.KernelIdeal.Host.V_ytstack m c k n q
  rw [hY, hT, Cert.KernelIdeal.Fr.V_main_arg0 m c, Cert.KernelIdeal.Fr.V_main_arg2 m c, Cert.KernelIdeal.Fr.V_main_arg3 m c,
    Cert.KernelIdeal.Fr.V_main_arg4 m c, Cert.KernelIdeal.Fr.V_main_arg5 m c, Cert.KernelIdeal.Fr.V_main_arg6 m c,
    Cert.KernelIdeal.Fr.V_main_arg7 m c, Cert.KernelIdeal.Fr.V_main_arg8 m c, Cert.KernelIdeal.Fr.V_main_arg9 m c]

/-- At the extended reals the two programs, run from memories agreeing on the arguments, end with equal results. -/
theorem algebraic : Cert.algebraic_KernelIdeal_ReferenceIdeal := by
  intro m ρ m' ρ' _ hagree
  refine ⟨fun c => Cert.KernelIdeal.Val.G m c, Cert.KernelIdeal.Val.run m ρ, ?_⟩
  exact (θ_run Cert.ReferenceIdeal.defs _ _).mono (fun _ h c => ⟨(h c).1.trans (result_eq m m' c (hagree c)), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
